-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S_ : Shape := ⟨0, ![]⟩

class Facts : Prop where
  bcast_S_S64x9x128x128 : S_.BroadcastsInDim S64x9x128x128 (![] : Fin 0 → Fin S64x9x128x128.rank)
  reducesTo_S64x9x128x128_S_d0_1_2_3 : S64x9x128x128.ReducesTo [0, 1, 2, 3] S_
  h_S_ : 0 < S_.numel
  bcast_S_S64x1000 : S_.BroadcastsInDim S64x1000 (![] : Fin 0 → Fin S64x1000.rank)
  reducesTo_S64x1000_S_d0_1 : S64x1000.ReducesTo [0, 1] S_
  bcast_S_S64x9x4x128x128 : S_.BroadcastsInDim S64x9x4x128x128 (![] : Fin 0 → Fin S64x9x4x128x128.rank)
  reducesTo_S64x9x4x128x128_S_d0_1_2_3_4 : S64x9x4x128x128.ReducesTo [0, 1, 2, 3, 4] S_
  bcast_S_S64x9x5x128x128 : S_.BroadcastsInDim S64x9x5x128x128 (![] : Fin 0 → Fin S64x9x5x128x128.rank)
  reducesTo_S64x9x5x128x128_S_d0_1_2_3_4 : S64x9x5x128x128.ReducesTo [0, 1, 2, 3, 4] S_

variable [Facts]

def fn_part1 {F : FTy → Type} [FloatOps F] (main_v13 : IVec S_ 1) (main_v16 : IVec S64x9x5x128x128 1) : IVec S_ 1 :=
  let main_c_5 : IVec S_ 1 := constantI S_ 1 1#1
  let main_v17 : IVec S_ 1 := (fun x v => Host.reduce IntOp.andi x v reducesTo_S64x9x5x128x128_S_d0_1_2_3_4 h_S_) main_v16 main_c_5
  let main_v18 : IVec S_ 1 := andi main_v13 main_v17
  main_v18

def fn {F : FTy → Type} [FloatOps F] (main_arg0 : FVec F S64x9x128x128 .f32) (main_arg1 : FVec F S64x1000 .f32) (main_arg2 : FVec F S64x9x4x128x128 .f32) (main_arg3 : IVec S64 32) (main_arg4 : FVec F S64x9x5x128x128 .f32) : IVec S_ 1 :=
  let main_v0 : FVec F S64x9x128x128 .f32 := Host.absf main_arg0
  let main_cst : FVec F S_ .f32 := constant S_ .f32 0x7F800000#32
  let main_v1 : FVec F S64x9x128x128 .f32 := broadcastInDim S64x9x128x128 ![] bcast_S_S64x9x128x128 main_cst
  let main_v2 : IVec S64x9x128x128 1 := cmpf .olt main_v0 main_v1
  let main_c : IVec S_ 1 := constantI S_ 1 1#1
  let main_v3 : IVec S_ 1 := (fun x v => Host.reduce IntOp.andi x v reducesTo_S64x9x128x128_S_d0_1_2_3 h_S_) main_v2 main_c
  let main_v4 : FVec F S64x1000 .f32 := Host.absf main_arg1
  let main_cst_0 : FVec F S_ .f32 := constant S_ .f32 0x7F800000#32
  let main_v5 : FVec F S64x1000 .f32 := broadcastInDim S64x1000 ![] bcast_S_S64x1000 main_cst_0
  let main_v6 : IVec S64x1000 1 := cmpf .olt main_v4 main_v5
  let main_c_1 : IVec S_ 1 := constantI S_ 1 1#1
  let main_v7 : IVec S_ 1 := (fun x v => Host.reduce IntOp.andi x v reducesTo_S64x1000_S_d0_1 h_S_) main_v6 main_c_1
  let main_v8 : IVec S_ 1 := andi main_v3 main_v7
  let main_v9 : FVec F S64x9x4x128x128 .f32 := Host.absf main_arg2
  let main_cst_2 : FVec F S_ .f32 := constant S_ .f32 0x7F800000#32
  let main_v10 : FVec F S64x9x4x128x128 .f32 := broadcastInDim S64x9x4x128x128 ![] bcast_S_S64x9x4x128x128 main_cst_2
  let main_v11 : IVec S64x9x4x128x128 1 := cmpf .olt main_v9 main_v10
  let main_c_3 : IVec S_ 1 := constantI S_ 1 1#1
  let main_v12 : IVec S_ 1 := (fun x v => Host.reduce IntOp.andi x v reducesTo_S64x9x4x128x128_S_d0_1_2_3_4 h_S_) main_v11 main_c_3
  let main_v13 : IVec S_ 1 := andi main_v8 main_v12
  let main_v14 : FVec F S64x9x5x128x128 .f32 := Host.absf main_arg4
  let main_cst_4 : FVec F S_ .f32 := constant S_ .f32 0x7F800000#32
  let main_v15 : FVec F S64x9x5x128x128 .f32 := broadcastInDim S64x9x5x128x128 ![] bcast_S_S64x9x5x128x128 main_cst_4
  let main_v16 : IVec S64x9x5x128x128 1 := cmpf .olt main_v14 main_v15
  fn_part1 (F := F) main_v13 main_v16
-- ==== Kernel.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S2x8x128 : Shape := ⟨3, ![2, 8, 128]⟩
abbrev S1x9x128x128 : Shape := ⟨4, ![1, 9, 128, 128]⟩
abbrev S1x9x5x128x128 : Shape := ⟨5, ![1, 9, 5, 128, 128]⟩
abbrev S1x9x4x128x128 : Shape := ⟨5, ![1, 9, 4, 128, 128]⟩
abbrev S1x8x128 : Shape := ⟨3, ![1, 8, 128]⟩
abbrev S1x9x1x128x128 : Shape := ⟨5, ![1, 9, 1, 128, 128]⟩
abbrev S1x128x128 : Shape := ⟨3, ![1, 128, 128]⟩
abbrev S1x128 : Shape := ⟨2, ![1, 128]⟩
abbrev S1 : Shape := ⟨1, ![1]⟩
abbrev S1x1 : Shape := ⟨2, ![1, 1]⟩
abbrev S2x1x1 : Shape := ⟨3, ![2, 1, 1]⟩
abbrev S2 : Shape := ⟨1, ![2]⟩
abbrev S_ : Shape := ⟨0, ![]⟩
abbrev S64x1 : Shape := ⟨2, ![64, 1]⟩
abbrev S64x2 : Shape := ⟨2, ![64, 2]⟩

abbrev nBuf : Space → Nat
  | .hbm => 72
  | .vmem => 12
  | .smem => 0
  | _ => 0

abbrev bufTy : (tb : Table) → Fin (tcTables nBuf tb) → BufTy
  | .hbm, ⟨0, _⟩ => ⟨S64x9x128x128, .f32⟩
  | .hbm, ⟨1, _⟩ => ⟨S64x1000, .f32⟩
  | .hbm, ⟨2, _⟩ => ⟨S64x9x4x128x128, .f32⟩
  | .hbm, ⟨3, _⟩ => ⟨S64, .i32⟩
  | .hbm, ⟨4, _⟩ => ⟨S64x9x5x128x128, .f32⟩
  | .hbm, ⟨5, _⟩ => ⟨S2x8x128, .f32⟩
  | .hbm, ⟨6, _⟩ => ⟨S2x8x128, .f32⟩
  | .hbm, ⟨7, _⟩ => ⟨S2x8x128, .f32⟩
  | .hbm, ⟨8, _⟩ => ⟨S2x1x1, .f32⟩
  | .hbm, ⟨9, _⟩ => ⟨S2, .f32⟩
  | .hbm, ⟨10, _⟩ => ⟨S_, .f32⟩
  | .hbm, ⟨11, _⟩ => ⟨S_, .f32⟩
  | .hbm, ⟨12, _⟩ => ⟨S2x1x1, .f32⟩
  | .hbm, ⟨13, _⟩ => ⟨S2, .f32⟩
  | .hbm, ⟨14, _⟩ => ⟨S_, .f32⟩
  | .hbm, ⟨15, _⟩ => ⟨S_, .f32⟩
  | .hbm, ⟨16, _⟩ => ⟨S2x1x1, .f32⟩
  | .hbm, ⟨17, _⟩ => ⟨S2, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64x1000, .f32⟩
  | .hbm, ⟨27, _⟩ => ⟨S64x1000, .f32⟩
  | .hbm, ⟨28, _⟩ => ⟨S64x1000, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S64x1, .f32⟩
  | .hbm, ⟨33, _⟩ => ⟨S64x1000, .f32⟩
  | .hbm, ⟨34, _⟩ => ⟨S64x1000, .f32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i1⟩
  | .hbm, ⟨39, _⟩ => ⟨S_, .i32⟩
  | .hbm, ⟨40, _⟩ => ⟨S64, .i32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S64x1, .i32⟩
  | .hbm, ⟨51, _⟩ => ⟨S64x1, .i32⟩
  | .hbm, ⟨52, _⟩ => ⟨S64x2, .i32⟩
  | .hbm, ⟨53, _⟩ => ⟨S64, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S1x9x128x128, .f32⟩
  | .local _ .vmem, ⟨1, _⟩ => ⟨S1x9x128x128, .f32⟩
  | .local _ .vmem, ⟨2, _⟩ => ⟨S1x9x5x128x128, .f32⟩
  | .local _ .vmem, ⟨3, _⟩ => ⟨S1x9x5x128x128, .f32⟩
  | .local _ .vmem, ⟨4, _⟩ => ⟨S1x9x4x128x128, .f32⟩
  | .local _ .vmem, ⟨5, _⟩ => ⟨S1x9x4x128x128, .f32⟩
  | .local _ .vmem, ⟨6, _⟩ => ⟨S1x8x128, .f32⟩
  | .local _ .vmem, ⟨7, _⟩ => ⟨S1x8x128, .f32⟩
  | .local _ .vmem, ⟨8, _⟩ => ⟨S1x8x128, .f32⟩
  | .local _ .vmem, ⟨9, _⟩ => ⟨S1x8x128, .f32⟩
  | .local _ .vmem, ⟨10, _⟩ => ⟨S1x8x128, .f32⟩
  | .local _ .vmem, ⟨11, _⟩ => ⟨S1x8x128, .f32⟩
  | _, _ => ⟨S64x9x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_call0_cst : Ref sig .tc := ⟨.hbm, 20, rfl⟩
abbrev main_call0_v0 : Ref sig .tc := ⟨.hbm, 21, rfl⟩
abbrev main_call0_cst_0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_cst_1 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_v10 : Ref sig .tc := ⟨.hbm, 34, rfl⟩
abbrev main_v11 : Ref sig .tc := ⟨.hbm, 35, rfl⟩
abbrev main_c : Ref sig .tc := ⟨.hbm, 36, rfl⟩
abbrev main_v12 : Ref sig .tc := ⟨.hbm, 37, rfl⟩
abbrev main_v13 : Ref sig .tc := ⟨.hbm, 38, rfl⟩
abbrev main_c_2 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_3 : Ref sig .tc := ⟨.hbm, 43, rfl⟩
abbrev main_v17 : Ref sig .tc := ⟨.hbm, 44, rfl⟩
abbrev main_v18 : Ref sig .tc := ⟨.hbm, 45, rfl⟩
abbrev main_c_4 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_cst_5 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_cst_7 : Ref sig .tc := ⟨.hbm, 59, rfl⟩
abbrev main_v29 : Ref sig .tc := ⟨.hbm, 60, rfl⟩
abbrev main_cst_8 : Ref sig .tc := ⟨.hbm, 61, rfl⟩
abbrev main_v30 : Ref sig .tc := ⟨.hbm, 62, rfl⟩
abbrev main_cst_9 : Ref sig .tc := ⟨.hbm, 63, rfl⟩
abbrev main_v31 : Ref sig .tc := ⟨.hbm, 64, rfl⟩
abbrev main_v32 : Ref sig .tc := ⟨.hbm, 65, rfl⟩
abbrev main_cst_10 : Ref sig .tc := ⟨.hbm, 66, rfl⟩
abbrev main_v33 : Ref sig .tc := ⟨.hbm, 67, rfl⟩
abbrev main_v34 : Ref sig .tc := ⟨.hbm, 68, rfl⟩
abbrev main_cst_11 : Ref sig .tc := ⟨.hbm, 69, rfl⟩
abbrev main_v35 : Ref sig .tc := ⟨.hbm, 70, rfl⟩
abbrev main_v36 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![v1.toNat, c0_i32.toNat, c0_i32_0.toNat, c0_i32_1.toNat, c0_i32_2.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x9x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x9x4x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S1x9x128x128_S1x9x128x128_0_0_0_0 : ∀ a, (![0, 0, 0, 0] : Fin 4 → Nat) a + S1x9x128x128.size a ≤ S1x9x128x128.size a
  h_S1x9x128x128 : 0 < S1x9x128x128.numel
  inb_S1x9x5x128x128_S1x9x5x128x128_0_0_0_0_0 : ∀ a, (![0, 0, 0, 0, 0] : Fin 5 → Nat) a + S1x9x5x128x128.size a ≤ S1x9x5x128x128.size a
  h_S1x9x5x128x128 : 0 < S1x9x5x128x128.numel
  inb_S1x9x4x128x128_S1x9x4x128x128_0_0_0_0_0 : ∀ a, (![0, 0, 0, 0, 0] : Fin 5 → Nat) a + S1x9x4x128x128.size a ≤ S1x9x4x128x128.size a
  h_S1x9x4x128x128 : 0 < S1x9x4x128x128.numel
  slices_S1x9x5x128x128_o0_0_0_0_0_S1x9x1x128x128 : S1x9x5x128x128.Slices ![0, 0, 0, 0, 0] S1x9x1x128x128
  shapeCasts_S1x9x1x128x128_S1x9x128x128 : S1x9x1x128x128.ShapeCasts S1x9x128x128
  reduces_S1x9x128x128_S1x128x128 : S1x9x128x128.Reduces [1] S1x128x128
  reduces_S1x128x128_S1x128 : S1x128x128.Reduces [2] S1x128
  reduces_S1x128_S1 : S1x128.Reduces [1] S1
  shapeCasts_S1_S1x1 : S1.ShapeCasts S1x1
  reduces_S1x1_S1 : S1x1.Reduces [1] S1
  inpos_S1x1_p0_0 : ∀ a, (![0, 0] : Fin 2 → Nat) a < S1x1.size a
  slices_S1x9x5x128x128_o0_0_1_0_0_S1x9x4x128x128 : S1x9x5x128x128.Slices ![0, 0, 1, 0, 0] S1x9x4x128x128
  reduces_S1x9x4x128x128_S1x9x128x128 : S1x9x4x128x128.Reduces [2] S1x9x128x128
  shapeCasts_S1x8x128_S1x8x128 : S1x8x128.ShapeCasts S1x8x128
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  reducesTo_S64x1000_S64_d1 : S64x1000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x1000_0_1 : S64x1.BroadcastsInDim S64x1000 (![0, 1] : Fin 2 → Fin S64x1000.rank)
  concatenates_S64x1_S64x1_S64x2_d1 : Shape.Concatenates [S64x1, S64x1] S64x2 1
  reducesTo_S64_S_d0 : S64.ReducesTo [0] S_
  gather_S64x1000_S64x2_S64_n_01_n_n_01_1_11_wf : GatherDims.WF S64x1000 S64x2 S64 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x128x128.size a ≤ S64x9x128x128.size a
  hwx0_0 : ∀ i : grid0.Coords, EltTy.bits .f32 = 32 ∨ (Rect.block (s := S64x9x128x128) S1x9x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x9x5x128x128.size a ≤ S64x9x5x128x128.size a
  hwx0_1 : ∀ i : grid0.Coords, EltTy.bits .f32 = 32 ∨ (Rect.block (s := S64x9x5x128x128) S1x9x5x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x9x4x128x128.size a ≤ S64x9x4x128x128.size a
  hwx0_2 : ∀ i : grid0.Coords, EltTy.bits .f32 = 32 ∨ (Rect.block (s := S64x9x4x128x128) S1x9x4x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x8x128.size a ≤ S2x8x128.size a
  hwx0_5 : ∀ i : grid0.Coords, EltTy.bits .f32 = 32 ∨ (Rect.block (s := S2x8x128) S1x8x128.size (cc0_transform_5 i) (hinb0_5 i)).WholeWords (EltTy.packing .f32)

variable [Facts₀]

def gather_S64x1000_S64x2_S64_n_01_n_n_01_1_11 : GatherDims S64x1000 S64x2 S64 where
  offsetDims := []
  collapsedSliceDims := [0, 1]
  operandBatchingDims := []
  startIndicesBatchingDims := []
  startIndexMap := [0, 1]
  indexVectorDim := 1
  sliceSizes := ![1, 1]
  wf := gather_S64x1000_S64x2_S64_n_01_n_n_01_1_11_wf

abbrev win0_0 : Pipeline.Window sig grid0 :=
  Pipeline.Window.ofSpec (Memref.whole main_arg0) S1x9x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1x9x5x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x9x4x128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x8x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x9x128x128 : Shape := ⟨4, ![64, 9, 128, 128]⟩
abbrev S64x1000 : Shape := ⟨2, ![64, 1000]⟩
abbrev S64x9x4x128x128 : Shape := ⟨5, ![64, 9, 4, 128, 128]⟩
abbrev S64 : Shape := ⟨1, ![64]⟩
abbrev S64x9x5x128x128 : Shape := ⟨5, ![64, 9, 5, 128, 128]⟩
abbrev S64x9x1x128x128 : Shape := ⟨5, ![64, 9, 1, 128, 128]⟩
abbrev S_ : Shape := ⟨0, ![]⟩
abbrev S64x1 : Shape := ⟨2, ![64, 1]⟩
abbrev S64x2 : Shape := ⟨2, ![64, 2]⟩

abbrev nBuf : Space → Nat
  | .hbm => 89
  | .vmem => 0
  | .smem => 0
  | _ => 0

abbrev bufTy : (tb : Table) → Fin (tcTables nBuf tb) → BufTy
  | .hbm, ⟨0, _⟩ => ⟨S64x9x128x128, .f32⟩
  | .hbm, ⟨1, _⟩ => ⟨S64x1000, .f32⟩
  | .hbm, ⟨2, _⟩ => ⟨S64x9x4x128x128, .f32⟩
  | .hbm, ⟨3, _⟩ => ⟨S64, .i32⟩
  | .hbm, ⟨4, _⟩ => ⟨S64x9x5x128x128, .f32⟩
  | .hbm, ⟨5, _⟩ => ⟨S64x9x1x128x128, .f32⟩
  | .hbm, ⟨6, _⟩ => ⟨S64x9x128x128, .f32⟩
  | .hbm, ⟨7, _⟩ => ⟨S64x9x128x128, .f32⟩
  | .hbm, ⟨8, _⟩ => ⟨S_, .f32⟩
  | .hbm, ⟨9, _⟩ => ⟨S_, .f32⟩
  | .hbm, ⟨10, _⟩ => ⟨S64x9x128x128, .f32⟩
  | .hbm, ⟨11, _⟩ => ⟨S64x9x128x128, .f32⟩
  | .hbm, ⟨12, _⟩ => ⟨S64x9x128x128, .f32⟩
  | .hbm, ⟨13, _⟩ => ⟨S64x9x128x128, .f32⟩
  | .hbm, ⟨14, _⟩ => ⟨S_, .f32⟩
  | .hbm, ⟨15, _⟩ => ⟨S_, .f32⟩
  | .hbm, ⟨16, _⟩ => ⟨S64x9x128x128, .f32⟩
  | .hbm, ⟨17, _⟩ => ⟨S64x9x128x128, .f32⟩
  | .hbm, ⟨18, _⟩ => ⟨S_, .f32⟩
  | .hbm, ⟨19, _⟩ => ⟨S64x9x128x128, .f32⟩
  | .hbm, ⟨20, _⟩ => ⟨S64x9x128x128, .f32⟩
  | .hbm, ⟨21, _⟩ => ⟨S64x9x128x128, .f32⟩
  | .hbm, ⟨22, _⟩ => ⟨S64x9x128x128, .f32⟩
  | .hbm, ⟨23, _⟩ => ⟨S_, .f32⟩
  | .hbm, ⟨24, _⟩ => ⟨S_, .f32⟩
  | .hbm, ⟨25, _⟩ => ⟨S64x9x128x128, .f32⟩
  | .hbm, ⟨26, _⟩ => ⟨S64x9x128x128, .f32⟩
  | .hbm, ⟨27, _⟩ => ⟨S_, .f32⟩
  | .hbm, ⟨28, _⟩ => ⟨S_, .f32⟩
  | .hbm, ⟨29, _⟩ => ⟨S64x9x4x128x128, .f32⟩
  | .hbm, ⟨30, _⟩ => ⟨S64x9x4x128x128, .f32⟩
  | .hbm, ⟨31, _⟩ => ⟨S64x9x4x128x128, .f32⟩
  | .hbm, ⟨32, _⟩ => ⟨S_, .f32⟩
  | .hbm, ⟨33, _⟩ => ⟨S64x9x128x128, .f32⟩
  | .hbm, ⟨34, _⟩ => ⟨S64x9x128x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S64, .f32⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S64x1, .f32⟩
  | .hbm, ⟨43, _⟩ => ⟨S64x1000, .f32⟩
  | .hbm, ⟨44, _⟩ => ⟨S64x1000, .f32⟩
  | .hbm, ⟨45, _⟩ => ⟨S64x1000, .f32⟩
  | .hbm, ⟨46, _⟩ => ⟨S_, .f32⟩
  | .hbm, ⟨47, _⟩ => ⟨S64, .f32⟩
  | .hbm, ⟨48, _⟩ => ⟨S64x1, .f32⟩
  | .hbm, ⟨49, _⟩ => ⟨S64x1, .f32⟩
  | .hbm, ⟨50, _⟩ => ⟨S64x1000, .f32⟩
  | .hbm, ⟨51, _⟩ => ⟨S64x1000, .f32⟩
  | .hbm, ⟨52, _⟩ => ⟨S64, .i32⟩
  | .hbm, ⟨53, _⟩ => ⟨S_, .i32⟩
  | .hbm, ⟨54, _⟩ => ⟨S64, .i32⟩
  | .hbm, ⟨55, _⟩ => ⟨S64, .i1⟩
  | .hbm, ⟨56, _⟩ => ⟨S_, .i32⟩
  | .hbm, ⟨57, _⟩ => ⟨S64, .i32⟩
  | .hbm, ⟨58, _⟩ => ⟨S64, .i32⟩
  | .hbm, ⟨59, _⟩ => ⟨S64, .i32⟩
  | .hbm, ⟨60, _⟩ => ⟨S_, .i32⟩
  | .hbm, ⟨61, _⟩ => ⟨S64, .i32⟩
  | .hbm, ⟨62, _⟩ => ⟨S64, .i1⟩
  | .hbm, ⟨63, _⟩ => ⟨S_, .i32⟩
  | .hbm, ⟨64, _⟩ => ⟨S64, .i32⟩
  | .hbm, ⟨65, _⟩ => ⟨S64, .i32⟩
  | .hbm, ⟨66, _⟩ => ⟨S64, .i32⟩
  | .hbm, ⟨67, _⟩ => ⟨S64x1, .i32⟩
  | .hbm, ⟨68, _⟩ => ⟨S64x1, .i32⟩
  | .hbm, ⟨69, _⟩ => ⟨S64x2, .i32⟩
  | .hbm, ⟨70, _⟩ => ⟨S64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | _, _ => ⟨S64x9x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_call1_v0 : Ref sig .tc := ⟨.hbm, 15, rfl⟩
abbrev main_call1_v1 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_call2_cst : Ref sig .tc := ⟨.hbm, 37, rfl⟩
abbrev main_call2_v0 : Ref sig .tc := ⟨.hbm, 38, rfl⟩
abbrev main_call2_cst_0 : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_v6 : Ref sig .tc := ⟨.hbm, 45, rfl⟩
abbrev main_call2_cst_1 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_v21 : Ref sig .tc := ⟨.hbm, 51, rfl⟩
abbrev main_v22 : Ref sig .tc := ⟨.hbm, 52, rfl⟩
abbrev main_c : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_7 : Ref sig .tc := ⟨.hbm, 60, rfl⟩
abbrev main_v28 : Ref sig .tc := ⟨.hbm, 61, rfl⟩
abbrev main_v29 : Ref sig .tc := ⟨.hbm, 62, rfl⟩
abbrev main_c_8 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_cst_9 : Ref sig .tc := ⟨.hbm, 71, rfl⟩
abbrev main_v37 : Ref sig .tc := ⟨.hbm, 72, rfl⟩
abbrev main_cst_10 : Ref sig .tc := ⟨.hbm, 73, rfl⟩
abbrev main_v38 : Ref sig .tc := ⟨.hbm, 74, rfl⟩
abbrev main_v39 : Ref sig .tc := ⟨.hbm, 75, rfl⟩
abbrev main_cst_11 : Ref sig .tc := ⟨.hbm, 76, rfl⟩
abbrev main_v40 : Ref sig .tc := ⟨.hbm, 77, rfl⟩
abbrev main_cst_12 : Ref sig .tc := ⟨.hbm, 78, rfl⟩
abbrev main_v41 : Ref sig .tc := ⟨.hbm, 79, rfl⟩
abbrev main_cst_13 : Ref sig .tc := ⟨.hbm, 80, rfl⟩
abbrev main_v42 : Ref sig .tc := ⟨.hbm, 81, rfl⟩
abbrev main_v43 : Ref sig .tc := ⟨.hbm, 82, rfl⟩
abbrev main_cst_14 : Ref sig .tc := ⟨.hbm, 83, rfl⟩
abbrev main_v44 : Ref sig .tc := ⟨.hbm, 84, rfl⟩
abbrev main_v45 : Ref sig .tc := ⟨.hbm, 85, rfl⟩
abbrev main_cst_15 : Ref sig .tc := ⟨.hbm, 86, rfl⟩
abbrev main_v46 : Ref sig .tc := ⟨.hbm, 87, rfl⟩
abbrev main_v47 : Ref sig .tc := ⟨.hbm, 88, rfl⟩

abbrev nD : Nat := 1
abbrev τ : Topo := Topo.v7x

variable {F : FTy → Type} [FloatOps F]

class Facts₀ : Prop where
  slices_S64x9x5x128x128_S64x9x1x128x128_0_0_0_0_0 : S64x9x5x128x128.Slices ![0, 0, 0, 0, 0] S64x9x1x128x128
  shapeCasts_S64x9x1x128x128_S64x9x128x128 : S64x9x1x128x128.ShapeCasts S64x9x128x128
  bcast_S_S64x9x128x128 : S_.BroadcastsInDim S64x9x128x128 (![] : Fin 0 → Fin S64x9x128x128.rank)
  reducesTo_S64x9x128x128_S_d0_1_2_3 : S64x9x128x128.ReducesTo [0, 1, 2, 3] S_
  h_S_ : 0 < S_.numel
  slices_S64x9x5x128x128_S64x9x4x128x128_0_0_1_0_0 : S64x9x5x128x128.Slices ![0, 0, 1, 0, 0] S64x9x4x128x128
  reducesTo_S64x9x4x128x128_S64x9x128x128_d2 : S64x9x4x128x128.ReducesTo [2] S64x9x128x128
  reducesTo_S64x1000_S64_d1 : S64x1000.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x1000_0_1 : S64x1.BroadcastsInDim S64x1000 (![0, 1] : Fin 2 → Fin S64x1000.rank)
  concatenates_S64x1_S64x1_S64x2_d1 : Shape.Concatenates [S64x1, S64x1] S64x2 1
  reducesTo_S64_S_d0 : S64.ReducesTo [0] S_
  gather_S64x1000_S64x2_S64_n_01_n_n_01_1_11_wf : GatherDims.WF S64x1000 S64x2 S64 [] [0, 1] [] [0, 1] [] 1 ![1, 1]

variable [Facts₀]

def gather_S64x1000_S64x2_S64_n_01_n_n_01_1_11 : GatherDims S64x1000 S64x2 S64 where
  offsetDims := []
  collapsedSliceDims := [0, 1]
  operandBatchingDims := []
  startIndicesBatchingDims := []
  startIndexMap := [0, 1]
  indexVectorDim := 1
  sliceSizes := ![1, 1]
  wf := gather_S64x1000_S64x2_S64_n_01_n_n_01_1_11_wf

class Facts : Prop extends Facts₀ where

variable [Facts]
-- ==== Proof.LossSpec.lean ====
/-
  The three masked sums of the localization loss, on the extended reals.

  A cell is one anchor a at one pixel (h, w) of one batch row b. With p the predicted objectness at the cell, g the
  ground-truth mask there (channel 0 of the ground-truth array) and d the four coordinate differences
  (prediction minus target, target channels 1..4), the three cell terms are

      (1 - g) * -(max (-100) (log (1 + -p)))        no object
      g * -(max (-100) (log p))                     object
      g * sum_k d_k * d_k                           coordinates

  A batch row's contribution is the sum of a cell term over that row's 9 x 128 x 128 cells; each of the three losses
  is the sum of the row contributions over the 64 rows. The literals -100 and 1 are kept as the words both programs
  print; neither is ever evaluated.
-/
import Idealize.ShloMosaic.PureOps.Ideal
import Idealize.ShloMosaic.Lib.ValueIdx

noncomputable section

open scoped BigOperators

namespace Cert.LossSpec

open Idealize.ShloMosaic Idealize.ShloMosaic.ValueIdx

/-- The whole arrays: objectness, ground truth (mask and four target coordinates), predicted coordinates. -/
abbrev SObj : Shape := ⟨4, ![64, 9, 128, 128]⟩
abbrev SGt : Shape := ⟨5, ![64, 9, 5, 128, 128]⟩
abbrev SLoc : Shape := ⟨5, ![64, 9, 4, 128, 128]⟩
/-- One batch row of each. -/
abbrev BObj : Shape := ⟨4, ![1, 9, 128, 128]⟩
abbrev BGt : Shape := ⟨5, ![1, 9, 5, 128, 128]⟩
abbrev BLoc : Shape := ⟨5, ![1, 9, 4, 128, 128]⟩

/-- The lower clamp of a logarithm, the word both programs print for -100. -/
abbrev clampLo : EReal := Ideal.ofBits .f32 0xC2C80000#32
/-- The word both programs print for 1. -/
abbrev one32 : EReal := Ideal.ofBits .f32 0x3F800000#32

/-- The no-object term of a cell with objectness `p` and mask `g`. -/
def noObjCell (p g : EReal) : EReal := (one32 - g) * (-(max clampLo (Ideal.log1p (-p))))
/-- The object term of a cell. -/
def objCell (p g : EReal) : EReal := g * (-(max clampLo (Ideal.log p)))
/-- The coordinate term of a cell with mask `g` and coordinate differences `d`. -/
def coorCell (g : EReal) (d : Fin 4 → EReal) : EReal := g * ∑ k : Fin 4, d k * d k

/-! ## One batch row, given as blocks -/

/-- The no-object contribution of one batch row, from that row's objectness block `x0` and ground-truth block `x1`. -/
def rowNoObj (x0 : BObj.Idx → EReal) (x1 : BGt.Idx → EReal) : EReal :=
  ∑ h : Fin 128, ∑ w : Fin 128, ∑ a : Fin 9,
    noObjCell (x0 (ix4 (0 : Fin 1) a h w)) (x1 (ix5 (0 : Fin 1) a (0 : Fin 5) h w))
/-- The object contribution of one batch row. -/
def rowObj (x0 : BObj.Idx → EReal) (x1 : BGt.Idx → EReal) : EReal :=
  ∑ h : Fin 128, ∑ w : Fin 128, ∑ a : Fin 9,
    objCell (x0 (ix4 (0 : Fin 1) a h w)) (x1 (ix5 (0 : Fin 1) a (0 : Fin 5) h w))
/-- The coordinate contribution of one batch row, from its ground-truth block `x1` and predicted-coordinate block `x2`. -/
def rowCoor (x1 : BGt.Idx → EReal) (x2 : BLoc.Idx → EReal) : EReal :=
  ∑ h : Fin 128, ∑ w : Fin 128, ∑ a : Fin 9,
    coorCell (x1 (ix5 (0 : Fin 1) a (0 : Fin 5) h w))
      (fun k : Fin 4 => x2 (ix5 (0 : Fin 1) a k h w) - x1 (ix5 (0 : Fin 1) a k.succ h w))

/-! ## The whole arrays -/

/-- The cell terms read off the whole arrays at batch row `b`, anchor `a`, pixel `(h, w)`. -/
def noObjAt (P : SObj.Idx → EReal) (G : SGt.Idx → EReal) (b : Fin 64) (a : Fin 9) (h w : Fin 128) : EReal :=
  noObjCell (P (ix4 b a h w)) (G (ix5 b a (0 : Fin 5) h w))
def objAt (P : SObj.Idx → EReal) (G : SGt.Idx → EReal) (b : Fin 64) (a : Fin 9) (h w : Fin 128) : EReal :=
  objCell (P (ix4 b a h w)) (G (ix5 b a (0 : Fin 5) h w))
def coorAt (L : SLoc.Idx → EReal) (G : SGt.Idx → EReal) (b : Fin 64) (a : Fin 9) (h w : Fin 128) : EReal :=
  coorCell (G (ix5 b a (0 : Fin 5) h w)) (fun k : Fin 4 => L (ix5 b a k h w) - G (ix5 b a k.succ h w))

/-- Batch row `32 c + i`: the row the `i`-th of the 32 steps of half `c` works on. -/
def row (c : Fin 2) (i : Fin 32) : Fin 64 := ⟨32 * c.val + i.val, by have := c.isLt; have := i.isLt; omega⟩

/-- Batch row `b` of a whole array, as a block. -/
def blockObj (P : SObj.Idx → EReal) (b : Fin 64) : BObj.Idx → EReal := fun y => P (ix4 b (y 1) (y 2) (y 3))
def blockGt (G : SGt.Idx → EReal) (b : Fin 64) : BGt.Idx → EReal := fun y => G (ix5 b (y 1) (y 2) (y 3) (y 4))
def blockLoc (L : SLoc.Idx → EReal) (b : Fin 64) : BLoc.Idx → EReal := fun y => L (ix5 b (y 1) (y 2) (y 3) (y 4))

/-- A loss taken half by half and row by row: each of the two halves adds up its 32 rows' contributions, and the two
    halves are added. -/
def byHalves (g : Fin 64 → EReal) : EReal := ∑ c : Fin 2, ∑ i : Fin 32, g (row c i)

/-- A loss taken in one sum over every cell of the array. -/
def overCells (f : Fin 64 → Fin 9 → Fin 128 → Fin 128 → EReal) : EReal :=
  ∑ j : SObj.Idx, f (j 0) (j 1) (j 2) (j 3)

end Cert.LossSpec

end
-- ==== Proof.RefCells.lean ====
/-
  The reference's three losses, read through its elementwise operands, are the specification's sums over all cells.

  The reference computes on whole [64, 9, 128, 128] arrays. The mask is channel 0 of the ground truth: a slice of
  that channel followed by a reshape that drops the unit axis, so at the cell (b, a, h, w) it reads the ground truth at
  (b, a, 0, h, w) (the reshape's index is the row-major position ((b * 9 + a) * 128 + h) * 128 + w divided back into
  coordinates). The coordinate differences read the predicted coordinates at (b, a, k, h, w) and the ground truth at
  (b, a, 1 + k, h, w), and their squares are added over the four k from the initial value 0. Each loss is then the
  initial value 0 plus the sum of its operand over every index of the array.
-/
import proofs.«100047_j83408264888736_2_alg».proof.Proof.RefRead
import proofs.«100047_j83408264888736_2_alg».proof.Proof.LossSpec
import Idealize.ShloMosaic.Lib.ValueIdx
import Idealize.ShloMosaic.PureOps.Ideal
import Idealize.ShloMosaic.PureOps.Ideal.Laws

noncomputable section

open scoped BigOperators

namespace Cert.RefCells

open Idealize.ShloMosaic Idealize.ShloMosaic.ValueIdx Cert.LossSpec Cert.ReferenceIdeal Cert.ReferenceIdeal.Gen
  Cert.ReferenceIdeal.ReadP

/-! ## The indices the layout operations read -/

/-- Channel 0 of the ground truth at a cell: the row-major position of (b, a, h, w) in the [64, 9, 128, 128] array,
    divided back into the coordinates of the [64, 9, 1, 128, 128] array, is (b, a, 0, h, w). -/
theorem idx_mask (b : Fin 64) (a : Fin 9) (h w : Fin 128) :
    idx_main_v0 (idx_main_v1 (ix4 b a h w)) = ix5 b a (0 : Fin 5) h w := by
  have hb := b.isLt; have ha := a.isLt; have hh := h.isLt; have hw := w.isLt
  funext d
  refine Fin.ext ?_
  match d with
  | ⟨0, _⟩ => show (((b.val * 9 + a.val) * 128 + h.val) * 128 + w.val) / 147456 = b.val; omega
  | ⟨1, _⟩ => show (((b.val * 9 + a.val) * 128 + h.val) * 128 + w.val) / 16384 % 9 = a.val; omega
  | ⟨2, _⟩ => rfl
  | ⟨3, _⟩ => show (((b.val * 9 + a.val) * 128 + h.val) * 128 + w.val) / 128 % 128 = h.val; omega
  | ⟨4, _⟩ => show (((b.val * 9 + a.val) * 128 + h.val) * 128 + w.val) % 128 = w.val; omega

/-- The k-th term of the channel sum at a cell reads (b, a, k, h, w). -/
theorem idx_coor (b : Fin 64) (a : Fin 9) (h w : Fin 128) (k : Fin 4) :
    idx_main_v18 (ix4 b a h w) k = ix5 b a k h w := by
  funext d
  refine Fin.ext ?_
  match d with
  | ⟨0, _⟩ => rfl | ⟨1, _⟩ => rfl | ⟨2, _⟩ => rfl | ⟨3, _⟩ => rfl | ⟨4, _⟩ => rfl

/-- The target coordinates are channels 1..4 of the ground truth: the slice reads (b, a, 1 + k, h, w). -/
theorem idx_target (b : Fin 64) (a : Fin 9) (h w : Fin 128) (k : Fin 4) :
    idx_main_v15 (ix5 b a k h w) = ix5 b a k.succ h w := by
  funext d
  refine Fin.ext ?_
  match d with
  | ⟨0, _⟩ => rfl | ⟨1, _⟩ => rfl
  | ⟨2, _⟩ => show 1 + k.val = k.val + 1; omega
  | ⟨3, _⟩ => rfl | ⟨4, _⟩ => rfl

/-! ## The operands at a cell -/

/-- The mask operand at a cell is the ground truth's channel 0 there. -/
theorem v1_apply (x4 : (⟨S64x9x5x128x128, .f32⟩ : BufTy).Contents (Elt Ideal)) (b : Fin 64) (a : Fin 9) (h w : Fin 128) :
    val_main_v1 (F := Ideal) x4 (ix4 b a h w) = x4 (ix5 b a (0 : Fin 5) h w) := by
  rw [val_main_v1_apply, val_main_v0_apply, idx_mask]

/-- The no-object operand at a cell is the specification's no-object cell term. -/
theorem v10_apply (x0 : (⟨S64x9x128x128, .f32⟩ : BufTy).Contents (Elt Ideal))
    (x4 : (⟨S64x9x5x128x128, .f32⟩ : BufTy).Contents (Elt Ideal)) (b : Fin 64) (a : Fin 9) (h w : Fin 128) :
    val_main_v10 (F := Ideal) x0 x4 (ix4 b a h w) = noObjAt x0 x4 b a h w := by
  rw [val_main_v10_apply, val_main_v8_apply, val_main_v7_apply, val_main_cst_1_apply, v1_apply,
    val_main_v9_apply, val_main_v6_apply, val_main_call1_v1_apply, val_main_call1_v0_apply, val_main_cst_0_apply,
    val_main_v5_apply, val_main_v4_apply]
  simp only [Ideal.ofBits_def, Ideal.hostNegf_def, Ideal.negf_def, Ideal.maximumf_def, Ideal.hostUnary_log1p_def,
    Ideal.subf_def, Ideal.mulf_def, noObjAt, noObjCell]

/-- The object operand at a cell is the specification's object cell term. -/
theorem v13_apply (x0 : (⟨S64x9x128x128, .f32⟩ : BufTy).Contents (Elt Ideal))
    (x4 : (⟨S64x9x5x128x128, .f32⟩ : BufTy).Contents (Elt Ideal)) (b : Fin 64) (a : Fin 9) (h w : Fin 128) :
    val_main_v13 (F := Ideal) x0 x4 (ix4 b a h w) = objAt x0 x4 b a h w := by
  rw [val_main_v13_apply, v1_apply, val_main_v12_apply, val_main_v3_apply, val_main_call0_v1_apply,
    val_main_call0_v0_apply, val_main_cst_apply, val_main_v2_apply]
  simp only [Ideal.ofBits_def, Ideal.hostNegf_def, Ideal.negf_def, Ideal.maximumf_def, Ideal.hostUnary_log_def,
    Ideal.mulf_def, objAt, objCell]

/-- The coordinate operand at a cell is the specification's coordinate cell term. -/
theorem v19_apply (x2 : (⟨S64x9x4x128x128, .f32⟩ : BufTy).Contents (Elt Ideal))
    (x4 : (⟨S64x9x5x128x128, .f32⟩ : BufTy).Contents (Elt Ideal)) (b : Fin 64) (a : Fin 9) (h w : Fin 128) :
    val_main_v19 (F := Ideal) x2 x4 (ix4 b a h w) = coorAt x2 x4 b a h w := by
  rw [val_main_v19_apply, v1_apply, val_main_v18_apply, val_main_cst_4_apply]
  simp only [idx_coor, val_main_v17_apply, val_main_v16_apply, val_main_v15_apply, idx_target,
    Ideal.ofBits_def, Ideal.ofBits_zero_f32, zero_add, Ideal.subf_def, Ideal.mulf_def, coorAt, coorCell]

/-! ## The whole-array sums -/

/-- The reference's no-object loss is the sum of the no-object cell terms over every cell. -/
theorem v11_apply (x0 : (⟨S64x9x128x128, .f32⟩ : BufTy).Contents (Elt Ideal))
    (x4 : (⟨S64x9x5x128x128, .f32⟩ : BufTy).Contents (Elt Ideal)) (i : S_.Idx) :
    val_main_v11 (F := Ideal) x0 x4 i = overCells (noObjAt x0 x4) := by
  rw [val_main_v11_apply, val_main_cst_2_apply, Ideal.ofBits_def, Ideal.ofBits_zero_f32, zero_add]
  unfold overCells
  refine Finset.sum_congr rfl fun j _ => ?_
  obtain ⟨b, a, h, w, rfl⟩ : ∃ (b : Fin 64) (a : Fin 9) (h w : Fin 128), j = ix4 b a h w :=
    ⟨j 0, j 1, j 2, j 3, eq_ix4 j⟩
  exact v10_apply x0 x4 b a h w

/-- The reference's object loss is the sum of the object cell terms over every cell. -/
theorem v14_apply (x0 : (⟨S64x9x128x128, .f32⟩ : BufTy).Contents (Elt Ideal))
    (x4 : (⟨S64x9x5x128x128, .f32⟩ : BufTy).Contents (Elt Ideal)) (i : S_.Idx) :
    val_main_v14 (F := Ideal) x0 x4 i = overCells (objAt x0 x4) := by
  rw [val_main_v14_apply, val_main_cst_3_apply, Ideal.ofBits_def, Ideal.ofBits_zero_f32, zero_add]
  unfold overCells
  refine Finset.sum_congr rfl fun j _ => ?_
  obtain ⟨b, a, h, w, rfl⟩ : ∃ (b : Fin 64) (a : Fin 9) (h w : Fin 128), j = ix4 b a h w :=
    ⟨j 0, j 1, j 2, j 3, eq_ix4 j⟩
  exact v13_apply x0 x4 b a h w

/-- The reference's coordinate loss is the sum of the coordinate cell terms over every cell. -/
theorem v20_apply (x2 : (⟨S64x9x4x128x128, .f32⟩ : BufTy).Contents (Elt Ideal))
    (x4 : (⟨S64x9x5x128x128, .f32⟩ : BufTy).Contents (Elt Ideal)) (i : S_.Idx) :
    val_main_v20 (F := Ideal) x2 x4 i = overCells (coorAt x2 x4) := by
  rw [val_main_v20_apply, val_main_cst_5_apply, Ideal.ofBits_def, Ideal.ofBits_zero_f32, zero_add]
  unfold overCells
  refine Finset.sum_congr rfl fun j _ => ?_
  obtain ⟨b, a, h, w, rfl⟩ : ∃ (b : Fin 64) (a : Fin 9) (h w : Fin 128), j = ix4 b a h w :=
    ⟨j 0, j 1, j 2, j 3, eq_ix4 j⟩
  exact v19_apply x2 x4 b a h w

end Cert.RefCells

end
-- ==== Proof.TailSpec.lean ====
/-
  The two shapes the host lines after the grid are stated over.

  `halfSum o` is the host's reading of one output array: its entries (0, 0, 0) and (1, 0, 0), added from the zero word.
  `combine img s1 s2 s3` is the combination both programs end with, `img + (0.5 * s1 + 1 * s2 + 5 * s3) / 64`, the four
  literals kept as the words printed.
-/
import proofs.«100047_j83408264888736_2_alg».proof.Proof.Gen.KernelIdeal
import Idealize.ShloMosaic.PureOps.Ideal

noncomputable section

open Idealize.ShloMosaic

namespace Cert.TailSpec
open Cert.KernelIdeal Cert.KernelIdeal.Gen

/-- The host's reading of one output array. -/
def halfSum (o : (⟨S2x8x128, .f32⟩ : BufTy).Contents (Elt Ideal)) : (⟨S_, .f32⟩ : BufTy).Contents (Elt Ideal) :=
  Host.reduceAdd (F := Ideal) (shapeCast S2 (extractStridedSlice S2x1x1 ![0, 0, 0] o slices_S2x8x128_S2x1x1_0_0_0) shapeCasts_S2x1x1_S2)
    (constant (F := Ideal) S_ .f32 0x00000000#32) reducesTo_S2_S_d0 h_S_

/-- The combination both programs end with. -/
def combine (img s1 s2 s3 : (⟨S_, .f32⟩ : BufTy).Contents (Elt Ideal)) : (⟨S_, .f32⟩ : BufTy).Contents (Elt Ideal) :=
  addf img (Host.divf (F := Ideal) (addf (addf (mulf (constant (F := Ideal) S_ .f32 0x3F000000#32) s1)
    (mulf (constant (F := Ideal) S_ .f32 0x3F800000#32) s2)) (mulf (constant (F := Ideal) S_ .f32 0x40A00000#32) s3))
    (constant (F := Ideal) S_ .f32 0x42800000#32))

end Cert.TailSpec

end
-- ==== Proof.KernelTail.lean ====
/-
  The host lines after the grid. They read each output array at its two entries (q, 0, 0), add the two, and combine the
  three sums with the image-classification term, which they compute from the scores and the labels alone:

      result = image + (0.5 * s1 + 1 * s2 + 5 * s3) / 64.

  The image term is, operation for operation, the reference's own; it is carried as one function of the two arguments it
  reads and never opened.
-/
import proofs.«100047_j83408264888736_2_alg».proof.Proof.Gen.KernelIdeal.Frame
import proofs.«100047_j83408264888736_2_alg».proof.Proof.RefRead
import proofs.«100047_j83408264888736_2_alg».proof.Proof.TailSpec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelTail
open Cert.KernelIdeal Cert.KernelIdeal.Gen Cert.TailSpec

variable (m : (ℓ : Loc nD τ sig) → Buf (Elt Ideal) ℓ)

/-- The image-classification term, as the reference computes it from the scores and the labels. -/
abbrev image (x1 : (⟨S64x1000, .f32⟩ : BufTy).Contents (Elt Ideal)) (x3 : (⟨S64, .i32⟩ : BufTy).Contents (Elt Ideal)) :
    (⟨S_, .f32⟩ : BufTy).Contents (Elt Ideal) :=
  Cert.ReferenceIdeal.ReadP.val_main_v40 (F := Ideal) x1 x3

set_option maxHeartbeats 64000000 in
/-- What the lines after the grid leave in the result buffer. -/
theorem tail_eq (c : Dev nD) :
    Pipeline.afterTail₀ cfgs (dats m) 0 (V0 m) [hostOps1, hostOps1_1, hostOps1_2] c main_v36
      = combine (image (m ((c : Thread nD τ).loc main_arg1)) (m ((c : Thread nD τ).loc main_arg3)))
          (halfSum ((dats m 0 c).arrAt 3 cfg0.N)) (halfSum ((dats m 0 c).arrAt 4 cfg0.N)) (halfSum ((dats m 0 c).arrAt 5 cfg0.N)) := by
  unfold Pipeline.afterTail₀
  have hW1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have hW3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  have hO3 : Pipeline.withArrays (cfgs 0).spec c (V0 m c) (fun w => (dats m 0 c).arrAt w (cfgs 0).N) (Proc.devRef .tc main_v0_0)
      = (dats m 0 c).arrAt 3 cfg0.N := Pipeline.withArrays_arr spec0 launch0.win.arr_inj c _ _ 3
  have hO4 : Pipeline.withArrays (cfgs 0).spec c (V0 m c) (fun w => (dats m 0 c).arrAt w (cfgs 0).N) (Proc.devRef .tc main_v0_1)
      = (dats m 0 c).arrAt 4 cfg0.N := Pipeline.withArrays_arr spec0 launch0.win.arr_inj c _ _ 4
  have hO5 : Pipeline.withArrays (cfgs 0).spec c (V0 m c) (fun w => (dats m 0 c).arrAt w (cfgs 0).N) (Proc.devRef .tc main_v0_2)
      = (dats m 0 c).arrAt 5 cfg0.N := Pipeline.withArrays_arr spec0 launch0.win.arr_inj c _ _ 5
  generalize (dats m 0 c).arrAt 3 cfg0.N = A3 at hO3 ⊢
  generalize (dats m 0 c).arrAt 4 cfg0.N = A4 at hO4 ⊢
  generalize (dats m 0 c).arrAt 5 cfg0.N = A5 at hO5 ⊢
  generalize m ((c : Thread nD τ).loc main_arg1) = x1 at hW1 ⊢
  generalize m ((c : Thread nD τ).loc main_arg3) = x3 at hW3 ⊢
  generalize Pipeline.withArrays (cfgs 0).spec c (V0 m c) (fun w => (dats m 0 c).arrAt w (cfgs 0).N) = W at hW1 hW3 hO3 hO4 hO5 ⊢
  simp only [hostOps1, hostOps1_1, hostOps1_2, List.flatten_cons, List.flatten_nil, List.append_nil, List.cons_append, List.nil_append]
  after_results_simp
  simp only [TRef.toBuf, TRef.ofBuf, cast_eq]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  simp only [TRef.toBuf, TRef.ofBuf, cast_eq, hW1, hO3, hO4, hO5]
  rw [hW3]
  rfl

/-- The reference's result is the same combination of its image term and its three whole-array sums. -/
theorem ref_eq (x0 : (⟨Cert.ReferenceIdeal.S64x9x128x128, .f32⟩ : BufTy).Contents (Elt Ideal)) (x1 : (⟨Cert.ReferenceIdeal.S64x1000, .f32⟩ : BufTy).Contents (Elt Ideal))
    (x2 : (⟨Cert.ReferenceIdeal.S64x9x4x128x128, .f32⟩ : BufTy).Contents (Elt Ideal)) (x3 : (⟨Cert.ReferenceIdeal.S64, .i32⟩ : BufTy).Contents (Elt Ideal))
    (x4 : (⟨Cert.ReferenceIdeal.S64x9x5x128x128, .f32⟩ : BufTy).Contents (Elt Ideal)) :
    Cert.ReferenceIdeal.ReadP.val_main_v47 (F := Ideal) x0 x1 x2 x3 x4
      = combine (image x1 x3) (Cert.ReferenceIdeal.ReadP.val_main_v11 (F := Ideal) x0 x4)
          (Cert.ReferenceIdeal.ReadP.val_main_v14 (F := Ideal) x0 x4) (Cert.ReferenceIdeal.ReadP.val_main_v20 (F := Ideal) x2 x4) := rfl

end Cert.KernelTail

end
-- ==== Proof.KernelRun.lean ====
/-
  The idealized kernel's whole program, run: every weakly fair execution terminates with the result buffer at the
  combination of the image term and the host's readings of the three output arrays, and the five arguments unchanged.
  The run is the generated one; its post names the result buffer as what the lines after the grid leave there.
-/
import proofs.«100047_j83408264888736_2_alg».proof.Proof.Gen.KernelIdeal.Frame
import proofs.«100047_j83408264888736_2_alg».proof.Proof.KernelTail

set_option maxRecDepth 16384

noncomputable section

open Idealize.ShloMosaic Idealize.ShloMosaic.TcCoe Idealize.SL.Sem
open Idealize.ShloMosaic.Pipeline (Dat)

namespace Cert.KernelRun
open Cert.KernelIdeal Cert.KernelIdeal.Gen Cert.TailSpec Cert.KernelTail

variable (m : (ℓ : Loc nD τ sig) → Buf (Elt Ideal) ℓ) (ρ : Dev nD → PrngReg)

/-- The run, read: the result buffer and the five arguments after it. -/
theorem run : θ_run defs (onTc (τ := τ) (main (F := Ideal))) ⟨m, fun _ => 0, ρ⟩ (fun r => ∀ c : Dev nD,
      r.2.mem ((c.tc : Thread nD τ).loc main_v36)
        = combine (image (m ((c : Thread nD τ).loc main_arg1)) (m ((c : Thread nD τ).loc main_arg3)))
            (halfSum ((dats m 0 c).arrAt 3 cfg0.N)) (halfSum ((dats m 0 c).arrAt 4 cfg0.N)) (halfSum ((dats m 0 c).arrAt 5 cfg0.N))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v36 (Pipeline.mem_restRefs_of main_v36 (by decide) (by decide))).trans (tail_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      ((h c).1 1).trans (((dats m 0 c).arrAt_in 1 rfl _).trans ((A_eq m c 1).trans (V_main_arg4 m c)))⟩)
    (run_main m ρ)

end Cert.KernelRun

end
-- ==== Proof.KernelCases.lean ====
/-
  What one step of the grid leaves in each of the three carried blocks, as values of the step's inputs.

  A step works on one batch row: its objectness block x0, ground-truth block x1 and predicted-coordinate block x2.
  Each carried block ends the step as (what it held) + (the row's contribution, the same number in every entry):
  at a first step of a half, what it held is the zero block the step itself has just stored there; at every other
  step it is what the step before left. The body's last store to a block covers the whole block, so the block's
  contents after the step are that store's value, with every load read as the buffer's contents at that moment.
-/
import proofs.«100047_j83408264888736_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelCases
open Cert.KernelIdeal Cert.KernelIdeal.Gen
variable {F : FTy → Type} [FloatOps F]

/-- The zero offsets of a whole-block access, at ranks 3, 4 and 5. -/
theorem hz : (![0, 0, 0] : Fin 3 → Nat) = fun _ => 0 := funext fun a => by fin_cases a <;> rfl
theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-! ## A later step of a half: the block the step before left, plus this row's contribution -/

/-- The no-object block after a later step: what it held, plus the row's no-object sum. -/
theorem out_B_3 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x9x128x128 .f32) (x1 : Vec F S1x9x5x128x128 .f32) (x2 : Vec F S1x9x4x128x128 .f32) (xo3 xo4 xo5 : Vec F S1x8x128 .f32) :
    out0_B_3 c i arg2 harg2 arg3 harg3 arg4 harg4 arg5 harg5 arg6 harg6 arg7 harg7 hc0 x0 x1 x2 xo3 xo4 xo5 = k0_pay7 (k0_pay5 x0 x1) xo3 := by
  unfold out0_B_3
  rw [View.read_writes_eq_canon _ _ _ (cover0_B_3 c i arg2 harg2 arg3 harg3 arg4 harg4 arg5 harg5 arg6 harg6 arg7 harg7 hc0 x0 x1 x2 xo3 xo4 xo5)]
  unfold kernelRun0_B
  dsimp only
  sl_unfold_words
  rw [View.canon_unit_zero hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

/-- The object block after a later step: what it held, plus the row's object sum. -/
theorem out_B_4 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x9x128x128 .f32) (x1 : Vec F S1x9x5x128x128 .f32) (x2 : Vec F S1x9x4x128x128 .f32) (xo3 xo4 xo5 : Vec F S1x8x128 .f32) :
    out0_B_4 c i arg2 harg2 arg3 harg3 arg4 harg4 arg5 harg5 arg6 harg6 arg7 harg7 hc0 x0 x1 x2 xo3 xo4 xo5 = k0_pay8 (k0_pay6 x0 x1) xo4 := by
  unfold out0_B_4
  rw [View.read_writes_eq_canon _ _ _ (cover0_B_4 c i arg2 harg2 arg3 harg3 arg4 harg4 arg5 harg5 arg6 harg6 arg7 harg7 hc0 x0 x1 x2 xo3 xo4 xo5)]
  unfold kernelRun0_B
  dsimp only
  sl_unfold_words
  rw [View.canon_unit_zero hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

/-- The coordinate block after a later step: what it held, plus the row's coordinate sum. -/
theorem out_B_5 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : ¬cond0_0 i)
    (x0 : Vec F S1x9x128x128 .f32) (x1 : Vec F S1x9x5x128x128 .f32) (x2 : Vec F S1x9x4x128x128 .f32) (xo3 xo4 xo5 : Vec F S1x8x128 .f32) :
    out0_B_5 c i arg2 harg2 arg3 harg3 arg4 harg4 arg5 harg5 arg6 harg6 arg7 harg7 hc0 x0 x1 x2 xo3 xo4 xo5 = k0_pay9 x1 x2 (k0_pay4 x1) xo5 := by
  unfold out0_B_5
  rw [View.read_writes_eq_canon _ _ _ (cover0_B_5 c i arg2 harg2 arg3 harg3 arg4 harg4 arg5 harg5 arg6 harg6 arg7 harg7 hc0 x0 x1 x2 xo3 xo4 xo5)]
  unfold kernelRun0_B
  dsimp only
  sl_unfold_words
  rw [View.canon_unit_zero hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

/-! ## A first step of a half: the zero block, plus this row's contribution -/

/-- The no-object block after a first step: the zero block the step stored, plus the row's no-object sum. -/
theorem out_A_3 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x9x128x128 .f32) (x1 : Vec F S1x9x5x128x128 .f32) (x2 : Vec F S1x9x4x128x128 .f32) :
    out0_A_3 c i arg2 harg2 arg3 harg3 arg4 harg4 arg5 harg5 arg6 harg6 arg7 harg7 hc0 x0 x1 x2 = k0_pay7 (k0_pay5 x0 x1) (k0_pay1 (F := F)) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_cons_unit_zero (S := S1x8x128) hz, View.readCov_unit_zero (S := S1x8x128) _ hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

/-- The object block after a first step. -/
theorem out_A_4 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x9x128x128 .f32) (x1 : Vec F S1x9x5x128x128 .f32) (x2 : Vec F S1x9x4x128x128 .f32) :
    out0_A_4 c i arg2 harg2 arg3 harg3 arg4 harg4 arg5 harg5 arg6 harg6 arg7 harg7 hc0 x0 x1 x2 = k0_pay8 (k0_pay6 x0 x1) (k0_pay2 (F := F)) := by
  unfold out0_A_4
  rw [View.read_writes_eq_canon _ _ _ (cover0_A_4 c i arg2 harg2 arg3 harg3 arg4 harg4 arg5 harg5 arg6 harg6 arg7 harg7 hc0 x0 x1 x2)]
  unfold kernelRun0_A
  dsimp only
  sl_unfold_words
  rw [View.canon_cons_unit_zero (S := S1x8x128) hz, View.readCov_unit_zero (S := S1x8x128) _ hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

/-- The coordinate block after a first step. -/
theorem out_A_5 (c : Dev nD) (i : grid0.Coords) (arg2 : Memref sig .tc .vmem S1x9x128x128 .f32) (harg2 : arg2.IsWhole) (arg3 : Memref sig .tc .vmem S1x9x5x128x128 .f32) (harg3 : arg3.IsWhole) (arg4 : Memref sig .tc .vmem S1x9x4x128x128 .f32) (harg4 : arg4.IsWhole) (arg5 : Memref sig .tc .vmem S1x8x128 .f32) (harg5 : arg5.IsWhole) (arg6 : Memref sig .tc .vmem S1x8x128 .f32) (harg6 : arg6.IsWhole) (arg7 : Memref sig .tc .vmem S1x8x128 .f32) (harg7 : arg7.IsWhole) (hc0 : cond0_0 i)
    (x0 : Vec F S1x9x128x128 .f32) (x1 : Vec F S1x9x5x128x128 .f32) (x2 : Vec F S1x9x4x128x128 .f32) :
    out0_A_5 c i arg2 harg2 arg3 harg3 arg4 harg4 arg5 harg5 arg6 harg6 arg7 harg7 hc0 x0 x1 x2 = k0_pay9 x1 x2 (k0_pay4 x1) (k0_pay3 (F := F)) := by
  unfold out0_A_5
  rw [View.read_writes_eq_canon _ _ _ (cover0_A_5 c i arg2 harg2 arg3 harg3 arg4 harg4 arg5 harg5 arg6 harg6 arg7 harg7 hc0 x0 x1 x2)]
  unfold kernelRun0_A
  dsimp only
  sl_unfold_words
  rw [View.canon_cons_unit_zero (S := S1x8x128) hz, View.readCov_unit_zero (S := S1x8x128) _ hz]
  simp only [View.readAt_eq_ld, harg2.read_unread, harg3.read_unread, harg4.read_unread, harg5.read_unread, harg6.read_unread,
    harg7.read_unread, View.ld_unit_zero (S := S1x8x128) hz, View.ld_unit_zero (S := S1x9x128x128) hz4,
    View.ld_unit_zero (S := S1x9x5x128x128) hz5, View.ld_unit_zero (S := S1x9x4x128x128) hz5]

end Cert.KernelCases

end
-- ==== Proof.KernelPayloads.lean ====
/-
  The kernel body's arithmetic, read on the extended reals.

  The body of one grid step is nine pure terms over the blocks it loads: three zero blocks, the mask block (channel 0 of
  the ground-truth block), the row's no-object sum, the elementwise object term, and three updates that add a row sum,
  broadcast, to a carried [1,8,128] block. Here each is read as the specification's form: a zero block is 0 everywhere,
  an update is the carried element plus the row's contribution, and the row sums are the triple sums over pixels and
  anchors of the cell terms.

  A sum over one axis is the plain sum over that axis's coordinates; the row total is taken over the anchors, then over
  the last axis, then over the remaining axis, then over a unit axis. The printed cell terms differ from the
  specification's by 0 - x = -x and by the order of the two arguments of max.
-/
import proofs.«100047_j83408264888736_2_alg».proof.Proof.Gen.KernelIdeal.Skeleton
import proofs.«100047_j83408264888736_2_alg».proof.Proof.LossSpec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelPayloads

open Cert.KernelIdeal Cert.KernelIdeal.Gen Cert.LossSpec Idealize.ShloMosaic Idealize.ShloMosaic.ValueIdx

/-! ## The zero blocks and the no-object update -/

/-- A zero block is 0 at every element. -/
theorem pay1_apply (j : S1x8x128.Idx) : k0_pay1 (F := Ideal) j = 0 := Ideal.ofBits_zero_f32
theorem pay2_apply (j : S1x8x128.Idx) : k0_pay2 (F := Ideal) j = 0 := Ideal.ofBits_zero_f32
theorem pay3_apply (j : S1x8x128.Idx) : k0_pay3 (F := Ideal) j = 0 := Ideal.ofBits_zero_f32

/-- The no-object accumulator's new contents: the carried block plus the value `v`, at every element. -/
theorem pay7_apply (v : Ideal .f32) (xo : Vec Ideal S1x8x128 .f32) (j : S1x8x128.Idx) :
    k0_pay7 (F := Ideal) v xo j = xo j + v := by
  unfold k0_pay7
  rw [shapeCast_self]
  rfl

/-! ## Cuts, casts and one-axis sums at an index -/

/-- The mask block read at anchor `a`, pixel `(h, w)`: channel 0 of the ground-truth block there. -/
theorem pay4_apply (x1 : Vec Ideal S1x9x5x128x128 .f32) (a : Fin 9) (h w : Fin 128) :
    k0_pay4 (F := Ideal) x1 (ix4 (0 : Fin 1) a h w) = x1 (ix5 (0 : Fin 1) a (0 : Fin 5) h w) := by
  unfold k0_pay4
  refine (shapeCast_apply _ _ (ix4 (0 : Fin 1) a h w) (ix5 (0 : Fin 1) a (0 : Fin 1) h w) ?_).trans ?_
  · rw [Shape.rowMajor_val_five, Shape.rowMajor_val_four]
    show ((((0 : Nat) * 9 + a.val) * 1 + 0) * 128 + h.val) * 128 + w.val = (((0 : Nat) * 9 + a.val) * 128 + h.val) * 128 + w.val
    omega
  · refine extractStridedSlice_apply _ _ _ (ix5 (0 : Fin 1) a (0 : Fin 1) h w) (ix5 (0 : Fin 1) a (0 : Fin 5) h w) fun b => ?_
    match b with
    | ⟨0, _⟩ => exact rfl
    | ⟨1, _⟩ => exact (Nat.zero_add _).symm
    | ⟨2, _⟩ => exact rfl
    | ⟨3, _⟩ => exact (Nat.zero_add _).symm
    | ⟨4, _⟩ => exact (Nat.zero_add _).symm

/-- The four target channels of the ground-truth block: channel `k` of the cut is channel `k + 1` of the block. -/
theorem targets_apply (x1 : Vec Ideal S1x9x5x128x128 .f32) (a : Fin 9) (k : Fin 4) (h w : Fin 128) :
    extractStridedSlice S1x9x4x128x128 ![0, 0, 1, 0, 0] x1 slices_S1x9x5x128x128_o0_0_1_0_0_S1x9x4x128x128 (ix5 (0 : Fin 1) a k h w)
      = x1 (ix5 (0 : Fin 1) a k.succ h w) := by
  refine extractStridedSlice_apply _ _ _ (ix5 (0 : Fin 1) a k h w) (ix5 (0 : Fin 1) a k.succ h w) fun b => ?_
  match b with
  | ⟨0, _⟩ => exact rfl
  | ⟨1, _⟩ => exact (Nat.zero_add _).symm
  | ⟨2, _⟩ => show k.val + 1 = 1 + k.val; omega
  | ⟨3, _⟩ => exact (Nat.zero_add _).symm
  | ⟨4, _⟩ => exact (Nat.zero_add _).symm

/-- The sum over the anchors of a [1,9,128,128] block, at pixel `(h, w)`. -/
theorem sumAnchors_apply (u : FVec Ideal S1x9x128x128 .f32) (h w : Fin 128) :
    multiReduction .add [1] S1x128x128 u 0x00000000#32 reduces_S1x9x128x128_S1x128x128 (.inl rfl) rfl (ix3 (0 : Fin 1) h w)
      = ∑ a : Fin 9, u (ix4 (0 : Fin 1) a h w) := by
  refine (Ideal.multiReduction_add_single u 0x00000000#32 reduces_S1x9x128x128_S1x128x128 _ _ _).trans ?_
  refine Finset.sum_congr rfl fun a _ => congrArg u ?_
  funext e
  match e with
  | ⟨0, _⟩ => exact rfl
  | ⟨1, _⟩ => exact rfl
  | ⟨2, _⟩ => exact rfl
  | ⟨3, _⟩ => exact rfl

/-- The sum over the four coordinate channels of a [1,9,4,128,128] block, at anchor `a`, pixel `(h, w)`. -/
theorem sumChannels_apply (u : FVec Ideal S1x9x4x128x128 .f32) (a : Fin 9) (h w : Fin 128) :
    multiReduction .add [2] S1x9x128x128 u 0x00000000#32 reduces_S1x9x4x128x128_S1x9x128x128 (.inl rfl) rfl (ix4 (0 : Fin 1) a h w)
      = ∑ k : Fin 4, u (ix5 (0 : Fin 1) a k h w) := by
  refine (Ideal.multiReduction_add_single u 0x00000000#32 reduces_S1x9x4x128x128_S1x9x128x128 _ _ _).trans ?_
  refine Finset.sum_congr rfl fun k _ => congrArg u ?_
  funext e
  match e with
  | ⟨0, _⟩ => exact rfl
  | ⟨1, _⟩ => exact rfl
  | ⟨2, _⟩ => exact rfl
  | ⟨3, _⟩ => exact rfl
  | ⟨4, _⟩ => exact rfl

/-- The sum over the last axis of a [1,128,128] block, at row `h`. -/
theorem sumLanes_apply (u : FVec Ideal S1x128x128 .f32) (h : Fin 128) :
    multiReduction .add [2] S1x128 u 0x00000000#32 reduces_S1x128x128_S1x128 (.inl rfl) rfl (ix2 (0 : Fin 1) h)
      = ∑ w : Fin 128, u (ix3 (0 : Fin 1) h w) := by
  refine (Ideal.multiReduction_add_single u 0x00000000#32 reduces_S1x128x128_S1x128 _ _ _).trans ?_
  refine Finset.sum_congr rfl fun w _ => congrArg u ?_
  funext e
  match e with
  | ⟨0, _⟩ => exact rfl
  | ⟨1, _⟩ => exact rfl
  | ⟨2, _⟩ => exact rfl

/-- The sum over the remaining axis of a [1,128] block. -/
theorem sumRows_apply (u : FVec Ideal S1x128 .f32) :
    multiReduction .add [1] S1 u 0x00000000#32 reduces_S1x128_S1 (.inl rfl) rfl (ix1 (0 : Fin 1))
      = ∑ h : Fin 128, u (ix2 (0 : Fin 1) h) := by
  refine (Ideal.multiReduction_add_single u 0x00000000#32 reduces_S1x128_S1 _ _ _).trans ?_
  refine Finset.sum_congr rfl fun h _ => congrArg u ?_
  funext e
  match e with
  | ⟨0, _⟩ => exact rfl
  | ⟨1, _⟩ => exact rfl

/-- The sum over a unit axis is its one term. -/
theorem sumUnit_apply (u : FVec Ideal S1x1 .f32) :
    multiReduction .add [1] S1 u 0x00000000#32 reduces_S1x1_S1 (.inl rfl) rfl (ix1 (0 : Fin 1))
      = u (ix2 (0 : Fin 1) (0 : Fin 1)) := by
  refine (Ideal.multiReduction_add_single u 0x00000000#32 reduces_S1x1_S1 _ _ _).trans ?_
  refine (Fin.sum_univ_one _).trans (congrArg u ?_)
  funext e
  match e with
  | ⟨0, _⟩ => exact rfl
  | ⟨1, _⟩ => exact rfl

/-- A [1] block viewed as [1,1] keeps its one element. -/
theorem castUnit_apply (u : FVec Ideal S1 .f32) :
    shapeCast S1x1 u shapeCasts_S1_S1x1 (ix2 (0 : Fin 1) (0 : Fin 1)) = u (ix1 (0 : Fin 1)) := by
  refine shapeCast_apply _ _ (ix2 (0 : Fin 1) (0 : Fin 1)) (ix1 (0 : Fin 1)) ?_
  rw [Shape.rowMajor_val_one, Shape.rowMajor_val_two]
  rfl

/-! ## The row total and the three row sums -/

/-- The element at position (0, 0) of a [1,1] block. -/
theorem extractUnit_eq (v : FVec Ideal S1x1 .f32) :
    extractAt ![0, 0] v inpos_S1x1_p0_0 = v (ix2 (0 : Fin 1) (0 : Fin 1)) :=
  congrArg v (funext fun a => match a with | ⟨0, _⟩ => rfl | ⟨1, _⟩ => rfl)

/-- The total of a [1,128,128] block as the kernel takes it — over the last axis, then over the remaining axis, then over
    a unit axis, and the one element read out — is the double sum over its pixels. -/
theorem rowTotal_eq (u : FVec Ideal S1x128x128 .f32) :
    extractAt ![0, 0]
      (shapeCast S1x1
        (multiReduction .add [1] S1
          (shapeCast S1x1
            (multiReduction .add [1] S1
              (multiReduction .add [2] S1x128 u 0x00000000#32 reduces_S1x128x128_S1x128 (.inl rfl) rfl)
              0x00000000#32 reduces_S1x128_S1 (.inl rfl) rfl)
            shapeCasts_S1_S1x1)
          0x00000000#32 reduces_S1x1_S1 (.inl rfl) rfl)
        shapeCasts_S1_S1x1)
      inpos_S1x1_p0_0
      = ∑ h : Fin 128, ∑ w : Fin 128, u (ix3 (0 : Fin 1) h w) := by
  refine (extractUnit_eq _).trans ?_
  refine (castUnit_apply _).trans ?_
  refine (sumUnit_apply _).trans ?_
  refine (castUnit_apply _).trans ?_
  refine (sumRows_apply _).trans ?_
  exact Finset.sum_congr rfl fun h _ => sumLanes_apply u h

/-- The no-object payload is the row's no-object contribution. -/
theorem pay5_eq (x0 : Vec Ideal S1x9x128x128 .f32) (x1 : Vec Ideal S1x9x5x128x128 .f32) :
    k0_pay5 (F := Ideal) x0 x1 = rowNoObj x0 x1 := by
  unfold k0_pay5 rowNoObj
  refine (rowTotal_eq _).trans ?_
  refine Finset.sum_congr rfl fun h _ => Finset.sum_congr rfl fun w _ => ?_
  refine (sumAnchors_apply _ h w).trans ?_
  refine Finset.sum_congr rfl fun a _ => ?_
  show (Ideal.ofBits .f32 0x3F800000#32 - k0_pay4 (F := Ideal) x1 (ix4 (0 : Fin 1) a h w))
      * (Ideal.ofBits .f32 0x00000000#32
          - max (Ideal.log1p (Ideal.ofBits .f32 0x00000000#32 - x0 (ix4 (0 : Fin 1) a h w))) (Ideal.ofBits .f32 0xC2C80000#32))
    = noObjCell (x0 (ix4 (0 : Fin 1) a h w)) (x1 (ix5 (0 : Fin 1) a (0 : Fin 5) h w))
  rw [pay4_apply, Ideal.ofBits_zero_f32, zero_sub, zero_sub, max_comm]
  rfl

/-- The object payload at anchor `a`, pixel `(h, w)` is the cell's object term. -/
theorem pay6_apply (x0 : Vec Ideal S1x9x128x128 .f32) (x1 : Vec Ideal S1x9x5x128x128 .f32) (a : Fin 9) (h w : Fin 128) :
    k0_pay6 (F := Ideal) x0 x1 (ix4 (0 : Fin 1) a h w)
      = objCell (x0 (ix4 (0 : Fin 1) a h w)) (x1 (ix5 (0 : Fin 1) a (0 : Fin 5) h w)) := by
  show k0_pay4 (F := Ideal) x1 (ix4 (0 : Fin 1) a h w)
      * (Ideal.ofBits .f32 0x00000000#32
          - max (Ideal.log (x0 (ix4 (0 : Fin 1) a h w))) (Ideal.ofBits .f32 0xC2C80000#32))
    = objCell (x0 (ix4 (0 : Fin 1) a h w)) (x1 (ix5 (0 : Fin 1) a (0 : Fin 5) h w))
  rw [pay4_apply, Ideal.ofBits_zero_f32, zero_sub, max_comm]
  rfl

/-- The object accumulator's new contents: the carried block plus the row's object contribution, at every element. -/
theorem pay8_apply (x0 : Vec Ideal S1x9x128x128 .f32) (x1 : Vec Ideal S1x9x5x128x128 .f32) (xo : Vec Ideal S1x8x128 .f32)
    (j : S1x8x128.Idx) :
    k0_pay8 (F := Ideal) (k0_pay6 (F := Ideal) x0 x1) xo j = xo j + rowObj x0 x1 := by
  unfold k0_pay8
  rw [shapeCast_self]
  refine congrArg (fun t => xo j + t) ?_
  refine (rowTotal_eq _).trans ?_
  unfold rowObj
  refine Finset.sum_congr rfl fun h _ => Finset.sum_congr rfl fun w _ => ?_
  refine (sumAnchors_apply _ h w).trans ?_
  exact Finset.sum_congr rfl fun a _ => pay6_apply x0 x1 a h w

/-- The coordinate accumulator's new contents: the carried block plus the row's coordinate contribution. -/
theorem pay9_apply (x1 : Vec Ideal S1x9x5x128x128 .f32) (x2 : Vec Ideal S1x9x4x128x128 .f32) (xo : Vec Ideal S1x8x128 .f32)
    (j : S1x8x128.Idx) :
    k0_pay9 (F := Ideal) x1 x2 (k0_pay4 (F := Ideal) x1) xo j = xo j + rowCoor x1 x2 := by
  unfold k0_pay9
  rw [shapeCast_self]
  refine congrArg (fun t => xo j + t) ?_
  refine (rowTotal_eq _).trans ?_
  unfold rowCoor
  refine Finset.sum_congr rfl fun h _ => Finset.sum_congr rfl fun w _ => ?_
  refine (sumAnchors_apply _ h w).trans ?_
  refine Finset.sum_congr rfl fun a _ => ?_
  refine (mulf_apply _ _ _).trans ?_
  rw [pay4_apply, sumChannels_apply]
  unfold coorCell
  refine congrArg (fun t => x1 (ix5 (0 : Fin 1) a (0 : Fin 5) h w) * t) ?_
  refine Finset.sum_congr rfl fun k _ => ?_
  show (x2 (ix5 (0 : Fin 1) a k h w)
        - extractStridedSlice S1x9x4x128x128 ![0, 0, 1, 0, 0] x1 slices_S1x9x5x128x128_o0_0_1_0_0_S1x9x4x128x128 (ix5 (0 : Fin 1) a k h w))
      * (x2 (ix5 (0 : Fin 1) a k h w)
        - extractStridedSlice S1x9x4x128x128 ![0, 0, 1, 0, 0] x1 slices_S1x9x5x128x128_o0_0_1_0_0_S1x9x4x128x128 (ix5 (0 : Fin 1) a k h w))
    = _
  rw [targets_apply]

end Cert.KernelPayloads
end
-- ==== Proof.RunningSum.lean ====
/-
  A running sum that restarts every 32 steps.

  Over the steps t = 0, 1, 2, ... a value is carried from step to step: at a step with t % 32 = 0 it restarts from
  zero and takes in that step's term, at every other step it adds the step's term to what the step before left.
  Inside the q-th run of 32 steps, after the step 32 q + i the carried value is therefore the sum of the terms of the
  steps 32 q, ..., 32 q + i; after the last step of the run it is the sum of the run's 32 terms, which are the terms
  of the 32 rows of one half. The only algebra is 0 + x = x; nothing is assumed finite.
-/
import proofs.«100047_j83408264888736_2_alg».proof.Proof.LossSpec
import Mathlib

noncomputable section

open scoped BigOperators

namespace Cert.RunningSum

/-- The carried value after step `t`: restarted from zero when `t % 32 = 0`, otherwise added to. -/
def run32 (g : ℕ → EReal) : ℕ → EReal
  | 0 => 0 + g 0
  | n + 1 => if (n + 1) % 32 = 0 then 0 + g (n + 1) else run32 g n + g (n + 1)

/-- At the first step of a run the carried value is that step's term. -/
theorem run32_start (g : ℕ → EReal) (q : ℕ) : run32 g (32 * q) = g (32 * q) := by
  cases q with
  | zero => rw [Nat.mul_zero, run32, zero_add]
  | succ q =>
    have h : 32 * (q + 1) = (32 * q + 31) + 1 := by omega
    rw [h, run32, if_pos (by omega), zero_add]

/-- At a later step of a run the carried value is the one before plus that step's term. -/
theorem run32_step (g : ℕ → EReal) (q i : ℕ) (hi : i + 1 < 32) :
    run32 g (32 * q + (i + 1)) = run32 g (32 * q + i) + g (32 * q + (i + 1)) := by
  have h : 32 * q + (i + 1) = (32 * q + i) + 1 := by omega
  rw [h, run32, if_neg (by omega)]

/-- Inside the `q`-th run, after step `32 q + i` the carried value is the sum of the run's first `i + 1` terms. -/
theorem run32_within (g : ℕ → EReal) (q i : ℕ) (hi : i < 32) :
    run32 g (32 * q + i) = ∑ k ∈ Finset.range (i + 1), g (32 * q + k) := by
  induction i with
  | zero => rw [Nat.add_zero, run32_start, Finset.sum_range_one, Nat.add_zero]
  | succ i ih =>
    rw [run32_step g q i hi, ih (by omega), Finset.sum_range_succ (fun k => g (32 * q + k)) (i + 1)]

/-- After the last step of half `c` the carried value is the sum of the terms of that half's 32 rows. -/
theorem run32_last (g : ℕ → EReal) (c : Fin 2) :
    run32 g (32 * c.val + 31) = ∑ i : Fin 32, g (Cert.LossSpec.row c i).val := by
  rw [run32_within g c.val 31 (by omega), Finset.sum_range (fun k => g (32 * c.val + k))]
  rfl

end Cert.RunningSum

end
-- ==== Proof.KernelAccum.lean ====
/-
  The carried blocks, step by step: after step n each of the three blocks holds, in every entry, the running sum of
  its loss's row contributions over the steps of the current half up to n.

  Step n works on the batch row its input blocks are cut at. A first step of a half (n % 32 = 0) leaves
  0 + (the row's contribution); every other step leaves (what the step before left) + (the row's contribution).
  That is the recursion `run32`, so the statement follows by induction on the step from the two case readings of the
  body and the payloads read on the extended reals.
-/
import proofs.«100047_j83408264888736_2_alg».proof.Proof.Gen.KernelIdeal.Frame
import proofs.«100047_j83408264888736_2_alg».proof.Proof.KernelCases
import proofs.«100047_j83408264888736_2_alg».proof.Proof.KernelPayloads
import proofs.«100047_j83408264888736_2_alg».proof.Proof.RunningSum
import proofs.«100047_j83408264888736_2_alg».proof.Proof.LossSpec

set_option maxRecDepth 16384

noncomputable section

open Idealize.ShloMosaic Idealize.ShloMosaic.TcCoe Idealize.SL.Sem
open Idealize.ShloMosaic.Pipeline (Dat)

namespace Cert.KernelAccum
open Cert.KernelIdeal Cert.KernelIdeal.Gen Cert.LossSpec Cert.RunningSum Cert.KernelCases Cert.KernelPayloads

variable (m : (ℓ : Loc nD τ sig) → Buf (Elt Ideal) ℓ)

/-- The three input blocks of step `t`, as the blocks of one batch row. -/
abbrev blk0 (c : Dev nD) (t : Fin cfg0.N) : Vec Ideal S1x9x128x128 .f32 := iblk m c 0 t
abbrev blk1 (c : Dev nD) (t : Fin cfg0.N) : Vec Ideal S1x9x5x128x128 .f32 := iblk m c 1 t
abbrev blk2 (c : Dev nD) (t : Fin cfg0.N) : Vec Ideal S1x9x4x128x128 .f32 := iblk m c 2 t

/-- The contribution of step `n`'s row to each of the three losses (zero past the grid, where no step is). -/
def gNo (c : Dev nD) (n : ℕ) : EReal := if h : n < cfg0.N then rowNoObj (blk0 m c ⟨n, h⟩) (blk1 m c ⟨n, h⟩) else 0
def gObj (c : Dev nD) (n : ℕ) : EReal := if h : n < cfg0.N then rowObj (blk0 m c ⟨n, h⟩) (blk1 m c ⟨n, h⟩) else 0
def gCoor (c : Dev nD) (n : ℕ) : EReal := if h : n < cfg0.N then rowCoor (blk1 m c ⟨n, h⟩) (blk2 m c ⟨n, h⟩) else 0

/-- The running sum at a first step of a half, and at any other step. -/
theorem run32_restart (g : ℕ → EReal) (n : ℕ) (h : (n + 1) % 32 = 0) : run32 g (n + 1) = 0 + g (n + 1) := by
  rw [run32, if_pos h]
theorem run32_add (g : ℕ → EReal) (n : ℕ) (h : ¬(n + 1) % 32 = 0) : run32 g (n + 1) = run32 g n + g (n + 1) := by
  rw [run32, if_neg h]

/-- After step `n` the three carried blocks hold, in every entry, the running sums of the rows' contributions. -/
theorem outsAt_eq (c : Dev nD) : ∀ (n : ℕ) (h : n < cfg0.N),
    outsAt0 m c n h = ((fun _ => run32 (gNo m c) n), (fun _ => run32 (gObj m c) n), (fun _ => run32 (gCoor m c) n))
  | 0, h => by
    rw [outsAt0_A m c ⟨0, h⟩ rfl, out_A_3, out_A_4, out_A_5]
    refine Prod.ext (funext fun j => ?_) (Prod.ext (funext fun j => ?_) (funext fun j => ?_))
    · show k0_pay7 (F := Ideal) (k0_pay5 (F := Ideal) (blk0 m c ⟨0, h⟩) (blk1 m c ⟨0, h⟩)) (k0_pay1 (F := Ideal)) j = run32 (gNo m c) 0
      rw [pay7_apply, pay5_eq, pay1_apply, run32, gNo, dif_pos h]
    · show k0_pay8 (F := Ideal) (k0_pay6 (F := Ideal) (blk0 m c ⟨0, h⟩) (blk1 m c ⟨0, h⟩)) (k0_pay2 (F := Ideal)) j = run32 (gObj m c) 0
      rw [pay8_apply, pay2_apply, run32, gObj, dif_pos h]
    · show k0_pay9 (F := Ideal) (blk1 m c ⟨0, h⟩) (blk2 m c ⟨0, h⟩) (k0_pay4 (F := Ideal) (blk1 m c ⟨0, h⟩)) (k0_pay3 (F := Ideal)) j = run32 (gCoor m c) 0
      rw [pay9_apply, pay3_apply, run32, gCoor, dif_pos h]
  | n + 1, h => by
    by_cases h0 : (n + 1) % 32 = 0
    · rw [outsAt0_A m c ⟨n + 1, h⟩ h0, out_A_3, out_A_4, out_A_5]
      refine Prod.ext (funext fun j => ?_) (Prod.ext (funext fun j => ?_) (funext fun j => ?_))
      · show k0_pay7 (F := Ideal) (k0_pay5 (F := Ideal) (blk0 m c ⟨n + 1, h⟩) (blk1 m c ⟨n + 1, h⟩)) (k0_pay1 (F := Ideal)) j = run32 (gNo m c) (n + 1)
        rw [pay7_apply, pay5_eq, pay1_apply, run32_restart _ _ h0, gNo, dif_pos h]
      · show k0_pay8 (F := Ideal) (k0_pay6 (F := Ideal) (blk0 m c ⟨n + 1, h⟩) (blk1 m c ⟨n + 1, h⟩)) (k0_pay2 (F := Ideal)) j = run32 (gObj m c) (n + 1)
        rw [pay8_apply, pay2_apply, run32_restart _ _ h0, gObj, dif_pos h]
      · show k0_pay9 (F := Ideal) (blk1 m c ⟨n + 1, h⟩) (blk2 m c ⟨n + 1, h⟩) (k0_pay4 (F := Ideal) (blk1 m c ⟨n + 1, h⟩)) (k0_pay3 (F := Ideal)) j = run32 (gCoor m c) (n + 1)
        rw [pay9_apply, pay3_apply, run32_restart _ _ h0, gCoor, dif_pos h]
    · rw [outsAt0_B m c ⟨n + 1, h⟩ h0, out_B_3, out_B_4, out_B_5]
      have ih := outsAt_eq c n (Nat.lt_of_succ_lt h)
      refine Prod.ext (funext fun j => ?_) (Prod.ext (funext fun j => ?_) (funext fun j => ?_))
      · show k0_pay7 (F := Ideal) (k0_pay5 (F := Ideal) (blk0 m c ⟨n + 1, h⟩) (blk1 m c ⟨n + 1, h⟩)) (outsAt0 m c n (Nat.lt_of_succ_lt h)).1 j = run32 (gNo m c) (n + 1)
        rw [pay7_apply, pay5_eq, ih, run32_add _ _ h0, gNo, dif_pos h]
      · show k0_pay8 (F := Ideal) (k0_pay6 (F := Ideal) (blk0 m c ⟨n + 1, h⟩) (blk1 m c ⟨n + 1, h⟩)) (outsAt0 m c n (Nat.lt_of_succ_lt h)).2.1 j = run32 (gObj m c) (n + 1)
        rw [pay8_apply, ih, run32_add _ _ h0, gObj, dif_pos h]
      · show k0_pay9 (F := Ideal) (blk1 m c ⟨n + 1, h⟩) (blk2 m c ⟨n + 1, h⟩) (k0_pay4 (F := Ideal) (blk1 m c ⟨n + 1, h⟩)) (outsAt0 m c n (Nat.lt_of_succ_lt h)).2.2 j = run32 (gCoor m c) (n + 1)
        rw [pay9_apply, ih, run32_add _ _ h0, gCoor, dif_pos h]

end Cert.KernelAccum

end
-- ==== Proof.KernelArrays.lean ====
/-
  What the three output arrays [2, 8, 128] end holding, from what the grid's steps leave in the carried blocks.

  Each output's block index is the half a step belongs to (step t is in half t / 32), so a block stays in place for the
  32 steps of a half and is written back to the array once, after the half's last step (t % 32 = 31). The two
  write-backs cover the array: entry (q, r, l) lies in the block written after step 32 q + 31, at position (0, r, l).
  So the array ends holding, at (q, r, l), the carried block after the last step of half q.
-/
import proofs.«100047_j83408264888736_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelArrays
open Cert.KernelIdeal Cert.KernelIdeal.Gen
variable {F : FTy → Type} [FloatOps F]
variable (m : (ℓ : Loc nD τ sig) → Buf (Elt F) ℓ)

/-- The carried blocks after a step depend on the step's number only. -/
theorem outsAt0_congr (c : Dev nD) {n n' : ℕ} (e : n = n') (h : n < cfg0.N) (h' : n' < cfg0.N) :
    outsAt0 m c n h = outsAt0 m c n' h' := by subst e; rfl

/-- The last step of half `q` is a step of the grid. -/
theorem last_lt (q : Fin 2) : 32 * q.val + 31 < cfg0.N := by
  rw [show cfg0.N = 64 from N_0]; have := q.isLt; omega

/-- Position `(r, l)` of a carried block, from an index `(q, r, l)` of an output array. -/
abbrev inBlock (i : S2x8x128.Idx) : S1x8x128.Idx := ix3 (0 : Fin 1) (show Fin 8 from i 1) (show Fin 128 from i 2)

/-! ## Output window 3 -/

/-- Output 3's block index at a step: the half the step belongs to, and nothing else. -/
theorem idx3 : ∀ t : Fin cfg0.N, win0_3.index t (0 : Fin 3) = t.val / 32 ∧ win0_3.index t (1 : Fin 3) = 0 ∧ win0_3.index t (2 : Fin 3) = 0 :=
  (by decide +kernel : ∀ t : Fin grid0.N, win0_3.index t (0 : Fin 3) = t.val / 32 ∧ win0_3.index t (1 : Fin 3) = 0 ∧ win0_3.index t (2 : Fin 3) = 0)

/-- What output 3's array ends holding: at `(q, r, l)`, the carried block after the last step of half `q`, at `(0, r, l)`. -/
def final3 (c : Dev nD) : S2x8x128.Idx → Elt F .f32 := fun i =>
  (outsAt0 m c (32 * (show Fin 2 from i 0).val + 31) (last_lt _)).1 (inBlock i)

/-- The write-back at the last step of a half writes that half's block of `final3`. -/
theorem flushed3_eq (c : Dev nD) (t : Fin cfg0.N) (hf : (cfg0.win 3).flush t = true) :
    (dats m 0 c).flushed 3 t = ((cfg0.win 3).blk t).view.read (Elt F) (final3 m c) := by
  have hN : cfg0.N = 64 := N_0
  have ht : t.val < 64 := lt_of_lt_of_eq t.isLt hN
  have h31 : t.val % 32 = 31 := (flush0_3 t).mp hf
  obtain ⟨e0, e1, e2⟩ := idx3 t
  show (cfg0.win 3).cut (grid0.coords t) ((dats m 0 c).after 3 t) = _
  rw [after0_3]
  funext y
  show (outsAt0 m c t.val t.isLt).1 y = final3 m c (((cfg0.win 3).blk t).view.emb y)
  unfold final3
  have hy0 : (y 0).val < 1 := (y 0).isLt
  have hq : 32 * (show Fin 2 from ((cfg0.win 3).blk t).view.emb y 0).val + 31 = t.val := by
    show 32 * (win0_3.index t (0 : Fin 3) * 1 + 1 * (y 0).val) + 31 = t.val
    rw [e0]; omega
  have hb : inBlock (((cfg0.win 3).blk t).view.emb y) = y := by
    funext a; apply Fin.ext
    match a with
    | ⟨0, _⟩ => show 0 = (y 0).val; omega
    | ⟨1, _⟩ => show win0_3.index t (1 : Fin 3) * 8 + 1 * (y 1).val = (y 1).val; rw [e1]; omega
    | ⟨2, _⟩ => show win0_3.index t (2 : Fin 3) * 128 + 1 * (y 2).val = (y 2).val; rw [e2]; omega
  rw [outsAt0_congr m c hq (last_lt _) t.isLt, hb]

/-- An index of the array is in a step's block iff each coordinate is in the block's range on its axis. -/
theorem mem_blk3 (t : Fin cfg0.N) (i : S2x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_0).slice (win0_3.rect t)).set ↔ _
  rw [View.set_slice_whole, Rect.mem_set_unit]
  exact Iff.rfl

/-- Every index `(q, r, l)` of the array is in the block written back at the last step of half `q`. -/
theorem cover3 (i : S2x8x128.Idx) : ∃ t : Fin cfg0.N, (cfg0.win 3).flush t = true ∧ i ∈ ((cfg0.win 3).blk t).view.set := by
  have h0 : (i 0).val < 2 := (i 0).isLt
  have h1 : (i 1).val < 8 := (i 1).isLt
  have h2 : (i 2).val < 128 := (i 2).isLt
  have hN : cfg0.N = 64 := N_0
  have hlt : 32 * (i 0).val + 31 < cfg0.N := by rw [hN]; omega
  refine ⟨⟨32 * (i 0).val + 31, hlt⟩, (flush0_3 _).mpr (by show (32 * (i 0).val + 31) % 32 = 31; omega), ?_⟩
  rw [mem_blk3]
  obtain ⟨e0, e1, e2⟩ := idx3 ⟨32 * (i 0).val + 31, hlt⟩
  have e0' : win0_3.index ⟨32 * (i 0).val + 31, hlt⟩ (0 : Fin 3) = (i 0).val := by rw [e0]; show (32 * (i 0).val + 31) / 32 = (i 0).val; omega
  intro a
  match a with
  | ⟨0, _⟩ => show win0_3.index ⟨32 * (i 0).val + 31, hlt⟩ (0 : Fin 3) * 1 ≤ (i 0).val ∧ (i 0).val < win0_3.index ⟨32 * (i 0).val + 31, hlt⟩ (0 : Fin 3) * 1 + 1; rw [e0']; omega
  | ⟨1, _⟩ => show win0_3.index ⟨32 * (i 0).val + 31, hlt⟩ (1 : Fin 3) * 8 ≤ (i 1).val ∧ (i 1).val < win0_3.index ⟨32 * (i 0).val + 31, hlt⟩ (1 : Fin 3) * 8 + 8; rw [e1]; omega
  | ⟨2, _⟩ => show win0_3.index ⟨32 * (i 0).val + 31, hlt⟩ (2 : Fin 3) * 128 ≤ (i 2).val ∧ (i 2).val < win0_3.index ⟨32 * (i 0).val + 31, hlt⟩ (2 : Fin 3) * 128 + 128; rw [e2]; omega

/-- So output 3's array ends holding `final3`. -/
theorem arr3_eq (c : Dev nD) : (dats m 0 c).arrAt 3 cfg0.N = final3 m c :=
  (dats m 0 c).arrAt_eq_of_cover 3 (final3 m c) (flushed3_eq m c) cover3

/-! ## Output window 4 -/

/-- Output 4's block index at a step: the half the step belongs to, and nothing else. -/
theorem idx4 : ∀ t : Fin cfg0.N, win0_4.index t (0 : Fin 3) = t.val / 32 ∧ win0_4.index t (1 : Fin 3) = 0 ∧ win0_4.index t (2 : Fin 3) = 0 :=
  (by decide +kernel : ∀ t : Fin grid0.N, win0_4.index t (0 : Fin 3) = t.val / 32 ∧ win0_4.index t (1 : Fin 3) = 0 ∧ win0_4.index t (2 : Fin 3) = 0)

/-- What output 4's array ends holding: at `(q, r, l)`, the carried block after the last step of half `q`, at `(0, r, l)`. -/
def final4 (c : Dev nD) : S2x8x128.Idx → Elt F .f32 := fun i =>
  (outsAt0 m c (32 * (show Fin 2 from i 0).val + 31) (last_lt _)).2.1 (inBlock i)

/-- The write-back at the last step of a half writes that half's block of `final4`. -/
theorem flushed4_eq (c : Dev nD) (t : Fin cfg0.N) (hf : (cfg0.win 4).flush t = true) :
    (dats m 0 c).flushed 4 t = ((cfg0.win 4).blk t).view.read (Elt F) (final4 m c) := by
  have hN : cfg0.N = 64 := N_0
  have ht : t.val < 64 := lt_of_lt_of_eq t.isLt hN
  have h31 : t.val % 32 = 31 := (flush0_4 t).mp hf
  obtain ⟨e0, e1, e2⟩ := idx4 t
  show (cfg0.win 4).cut (grid0.coords t) ((dats m 0 c).after 4 t) = _
  rw [after0_4]
  funext y
  show (outsAt0 m c t.val t.isLt).2.1 y = final4 m c (((cfg0.win 4).blk t).view.emb y)
  unfold final4
  have hy0 : (y 0).val < 1 := (y 0).isLt
  have hq : 32 * (show Fin 2 from ((cfg0.win 4).blk t).view.emb y 0).val + 31 = t.val := by
    show 32 * (win0_4.index t (0 : Fin 3) * 1 + 1 * (y 0).val) + 31 = t.val
    rw [e0]; omega
  have hb : inBlock (((cfg0.win 4).blk t).view.emb y) = y := by
    funext a; apply Fin.ext
    match a with
    | ⟨0, _⟩ => show 0 = (y 0).val; omega
    | ⟨1, _⟩ => show win0_4.index t (1 : Fin 3) * 8 + 1 * (y 1).val = (y 1).val; rw [e1]; omega
    | ⟨2, _⟩ => show win0_4.index t (2 : Fin 3) * 128 + 1 * (y 2).val = (y 2).val; rw [e2]; omega
  rw [outsAt0_congr m c hq (last_lt _) t.isLt, hb]

/-- An index of the array is in a step's block iff each coordinate is in the block's range on its axis. -/
theorem mem_blk4 (t : Fin cfg0.N) (i : S2x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v0_1).slice (win0_4.rect t)).set ↔ _
  rw [View.set_slice_whole, Rect.mem_set_unit]
  exact Iff.rfl

/-- Every index `(q, r, l)` of the array is in the block written back at the last step of half `q`. -/
theorem cover4 (i : S2x8x128.Idx) : ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  have hN : cfg0.N = 64 := N_0
  have hlt : 32 * (i 0).val + 31 < cfg0.N := by rw [hN]; omega
  refine ⟨⟨32 * (i 0).val + 31, hlt⟩, (flush0_4 _).mpr (by show (32 * (i 0).val + 31) % 32 = 31; omega), ?_⟩
  rw [mem_blk4]
  obtain ⟨e0, e1, e2⟩ := idx4 ⟨32 * (i 0).val + 31, hlt⟩
  have e0' : win0_4.index ⟨32 * (i 0).val + 31, hlt⟩ (0 : Fin 3) = (i 0).val := by rw [e0]; show (32 * (i 0).val + 31) / 32 = (i 0).val; omega
  intro a
  match a with
  | ⟨0, _⟩ => show win0_4.index ⟨32 * (i 0).val + 31, hlt⟩ (0 : Fin 3) * 1 ≤ (i 0).val ∧ (i 0).val < win0_4.index ⟨32 * (i 0).val + 31, hlt⟩ (0 : Fin 3) * 1 + 1; rw [e0']; omega
  | ⟨1, _⟩ => show win0_4.index ⟨32 * (i 0).val + 31, hlt⟩ (1 : Fin 3) * 8 ≤ (i 1).val ∧ (i 1).val < win0_4.index ⟨32 * (i 0).val + 31, hlt⟩ (1 : Fin 3) * 8 + 8; rw [e1]; omega
  | ⟨2, _⟩ => show win0_4.index ⟨32 * (i 0).val + 31, hlt⟩ (2 : Fin 3) * 128 ≤ (i 2).val ∧ (i 2).val < win0_4.index ⟨32 * (i 0).val + 31, hlt⟩ (2 : Fin 3) * 128 + 128; rw [e2]; omega

/-- So output 4's array ends holding `final4`. -/
theorem arr4_eq (c : Dev nD) : (dats m 0 c).arrAt 4 cfg0.N = final4 m c :=
  (dats m 0 c).arrAt_eq_of_cover 4 (final4 m c) (flushed4_eq m c) cover4

/-! ## Output window 5 -/

/-- Output 5's block index at a step: the half the step belongs to, and nothing else. -/
theorem idx5 : ∀ t : Fin cfg0.N, win0_5.index t (0 : Fin 3) = t.val / 32 ∧ win0_5.index t (1 : Fin 3) = 0 ∧ win0_5.index t (2 : Fin 3) = 0 :=
  (by decide +kernel : ∀ t : Fin grid0.N, win0_5.index t (0 : Fin 3) = t.val / 32 ∧ win0_5.index t (1 : Fin 3) = 0 ∧ win0_5.index t (2 : Fin 3) = 0)

/-- What output 5's array ends holding: at `(q, r, l)`, the carried block after the last step of half `q`, at `(0, r, l)`. -/
def final5 (c : Dev nD) : S2x8x128.Idx → Elt F .f32 := fun i =>
  (outsAt0 m c (32 * (show Fin 2 from i 0).val + 31) (last_lt _)).2.2 (inBlock i)

/-- The write-back at the last step of a half writes that half's block of `final5`. -/
theorem flushed5_eq (c : Dev nD) (t : Fin cfg0.N) (hf : (cfg0.win 5).flush t = true) :
    (dats m 0 c).flushed 5 t = ((cfg0.win 5).blk t).view.read (Elt F) (final5 m c) := by
  have hN : cfg0.N = 64 := N_0
  have ht : t.val < 64 := lt_of_lt_of_eq t.isLt hN
  have h31 : t.val % 32 = 31 := (flush0_5 t).mp hf
  obtain ⟨e0, e1, e2⟩ := idx5 t
  show (cfg0.win 5).cut (grid0.coords t) ((dats m 0 c).after 5 t) = _
  rw [after0_5]
  funext y
  show (outsAt0 m c t.val t.isLt).2.2 y = final5 m c (((cfg0.win 5).blk t).view.emb y)
  unfold final5
  have hy0 : (y 0).val < 1 := (y 0).isLt
  have hq : 32 * (show Fin 2 from ((cfg0.win 5).blk t).view.emb y 0).val + 31 = t.val := by
    show 32 * (win0_5.index t (0 : Fin 3) * 1 + 1 * (y 0).val) + 31 = t.val
    rw [e0]; omega
  have hb : inBlock (((cfg0.win 5).blk t).view.emb y) = y := by
    funext a; apply Fin.ext
    match a with
    | ⟨0, _⟩ => show 0 = (y 0).val; omega
    | ⟨1, _⟩ => show win0_5.index t (1 : Fin 3) * 8 + 1 * (y 1).val = (y 1).val; rw [e1]; omega
    | ⟨2, _⟩ => show win0_5.index t (2 : Fin 3) * 128 + 1 * (y 2).val = (y 2).val; rw [e2]; omega
  rw [outsAt0_congr m c hq (last_lt _) t.isLt, hb]

/-- An index of the array is in a step's block iff each coordinate is in the block's range on its axis. -/
theorem mem_blk5 (t : Fin cfg0.N) (i : S2x8x128.Idx) :
    i ∈ ((cfg0.win 5).blk t).view.set ↔ ∀ a : Fin 3, win0_5.index t a * S1x8x128.size a ≤ (i a).val ∧ (i a).val < win0_5.index t a * S1x8x128.size a + S1x8x128.size a := by
  show i ∈ ((View.whole main_v0_2).slice (win0_5.rect t)).set ↔ _
  rw [View.set_slice_whole, Rect.mem_set_unit]
  exact Iff.rfl

/-- Every index `(q, r, l)` of the array is in the block written back at the last step of half `q`. -/
theorem cover5 (i : S2x8x128.Idx) : ∃ t : Fin cfg0.N, (cfg0.win 5).flush t = true ∧ i ∈ ((cfg0.win 5).blk t).view.set := by
  have h0 : (i 0).val < 2 := (i 0).isLt
  have h1 : (i 1).val < 8 := (i 1).isLt
  have h2 : (i 2).val < 128 := (i 2).isLt
  have hN : cfg0.N = 64 := N_0
  have hlt : 32 * (i 0).val + 31 < cfg0.N := by rw [hN]; omega
  refine ⟨⟨32 * (i 0).val + 31, hlt⟩, (flush0_5 _).mpr (by show (32 * (i 0).val + 31) % 32 = 31; omega), ?_⟩
  rw [mem_blk5]
  obtain ⟨e0, e1, e2⟩ := idx5 ⟨32 * (i 0).val + 31, hlt⟩
  have e0' : win0_5.index ⟨32 * (i 0).val + 31, hlt⟩ (0 : Fin 3) = (i 0).val := by rw [e0]; show (32 * (i 0).val + 31) / 32 = (i 0).val; omega
  intro a
  match a with
  | ⟨0, _⟩ => show win0_5.index ⟨32 * (i 0).val + 31, hlt⟩ (0 : Fin 3) * 1 ≤ (i 0).val ∧ (i 0).val < win0_5.index ⟨32 * (i 0).val + 31, hlt⟩ (0 : Fin 3) * 1 + 1; rw [e0']; omega
  | ⟨1, _⟩ => show win0_5.index ⟨32 * (i 0).val + 31, hlt⟩ (1 : Fin 3) * 8 ≤ (i 1).val ∧ (i 1).val < win0_5.index ⟨32 * (i 0).val + 31, hlt⟩ (1 : Fin 3) * 8 + 8; rw [e1]; omega
  | ⟨2, _⟩ => show win0_5.index ⟨32 * (i 0).val + 31, hlt⟩ (2 : Fin 3) * 128 ≤ (i 2).val ∧ (i 2).val < win0_5.index ⟨32 * (i 0).val + 31, hlt⟩ (2 : Fin 3) * 128 + 128; rw [e2]; omega

/-- So output 5's array ends holding `final5`. -/
theorem arr5_eq (c : Dev nD) : (dats m 0 c).arrAt 5 cfg0.N = final5 m c :=
  (dats m 0 c).arrAt_eq_of_cover 5 (final5 m c) (flushed5_eq m c) cover5

end Cert.KernelArrays

end
-- ==== Proof.KernelBlocks.lean ====
/-
  The blocks of a grid step are batch rows of the argument arrays.

  Step t of the grid reads, through each of the three input windows, the block whose index is (t, 0, 0, 0[, 0]) with
  extent 1 on the batch axis: the block's coordinate y is the array's coordinate (t, y1, y2, y3[, y4]), that is, batch
  row t of the array.
-/
import proofs.«100047_j83408264888736_2_alg».proof.Proof.Gen.KernelIdeal.Frame
import proofs.«100047_j83408264888736_2_alg».proof.Proof.LossSpec
import Idealize.ShloMosaic.Lib.Pipeline.Value
import Idealize.ShloMosaic.Lib.ValueIdx

noncomputable section

namespace Cert.KernelBlocks

open Cert.KernelIdeal Cert.KernelIdeal.Gen Cert.LossSpec Idealize.ShloMosaic Idealize.ShloMosaic.TcCoe Idealize.SL.Sem
  Idealize.ShloMosaic.ValueIdx

variable (m : (ℓ : Loc nD τ sig) → Buf (Elt Ideal) ℓ)

/-- A grid step is below 64. -/
theorem step_lt (t : Fin cfg0.N) : t.val < 64 := Nat.lt_of_lt_of_eq t.isLt N_0

/-- Window 0's block index at step `t` is `(t, 0, 0, 0)`. -/
theorem idx_in0 : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, win0_0.index t (0 : Fin 4) = t.val ∧ win0_0.index t (1 : Fin 4) = 0
    ∧ win0_0.index t (2 : Fin 4) = 0 ∧ win0_0.index t (3 : Fin 4) = 0)

/-- The objectness block of step `t` is batch row `t` of the objectness array. -/
theorem blk0_eq (c : Dev nD) (t : Fin cfg0.N) :
    (iblk m c 0 t : Vec Ideal S1x9x128x128 .f32) = blockObj (m ((c : Thread nD τ).loc main_arg0)) ⟨t.val, step_lt t⟩ := by
  have hi := idx_in0 t
  funext j
  unfold iblk blockObj
  rw [View.read_apply]
  show V m c main_arg0 _ = m (c.tc.loc main_arg0) _
  unfold V
  congr 1
  funext a
  apply Fin.ext
  have h0 : (j 0).val < 1 := (j 0).isLt
  match a with
  | ⟨0, _⟩ => show win0_0.index t 0 * 1 + 1 * (j 0).val = t.val; rw [hi.1]; omega
  | ⟨1, _⟩ => show win0_0.index t 1 * 9 + 1 * (j 1).val = (j 1).val; rw [hi.2.1]; omega
  | ⟨2, _⟩ => show win0_0.index t 2 * 128 + 1 * (j 2).val = (j 2).val; rw [hi.2.2.1]; omega
  | ⟨3, _⟩ => show win0_0.index t 3 * 128 + 1 * (j 3).val = (j 3).val; rw [hi.2.2.2]; omega

/-- Window 1's block index at step `t` is `(t, 0, 0, 0, 0)`. -/
theorem idx_in1 : ∀ t : Fin cfg0.N, win0_1.index t (0 : Fin 5) = t.val ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, win0_1.index t (0 : Fin 5) = t.val ∧ win0_1.index t (1 : Fin 5) = 0
    ∧ win0_1.index t (2 : Fin 5) = 0 ∧ win0_1.index t (3 : Fin 5) = 0 ∧ win0_1.index t (4 : Fin 5) = 0)

/-- Window 2's block index at step `t` is `(t, 0, 0, 0, 0)`. -/
theorem idx_in2 : ∀ t : Fin cfg0.N, win0_2.index t (0 : Fin 5) = t.val ∧ win0_2.index t (1 : Fin 5) = 0
    ∧ win0_2.index t (2 : Fin 5) = 0 ∧ win0_2.index t (3 : Fin 5) = 0 ∧ win0_2.index t (4 : Fin 5) = 0 :=
  (by decide +kernel : ∀ t : Fin grid0.N, win0_2.index t (0 : Fin 5) = t.val ∧ win0_2.index t (1 : Fin 5) = 0
    ∧ win0_2.index t (2 : Fin 5) = 0 ∧ win0_2.index t (3 : Fin 5) = 0 ∧ win0_2.index t (4 : Fin 5) = 0)

/-- The ground-truth block of step `t` is batch row `t` of the ground-truth array. -/
theorem blk1_eq (c : Dev nD) (t : Fin cfg0.N) :
    (iblk m c 1 t : Vec Ideal S1x9x5x128x128 .f32) = blockGt (m ((c : Thread nD τ).loc main_arg4)) ⟨t.val, step_lt t⟩ := by
  have hi := idx_in1 t
  funext j
  unfold iblk blockGt
  rw [View.read_apply]
  show V m c main_arg4 _ = m (c.tc.loc main_arg4) _
  unfold V
  congr 1
  funext a
  apply Fin.ext
  have h0 : (j 0).val < 1 := (j 0).isLt
  match a with
  | ⟨0, _⟩ => show win0_1.index t 0 * 1 + 1 * (j 0).val = t.val; rw [hi.1]; omega
  | ⟨1, _⟩ => show win0_1.index t 1 * 9 + 1 * (j 1).val = (j 1).val; rw [hi.2.1]; omega
  | ⟨2, _⟩ => show win0_1.index t 2 * 5 + 1 * (j 2).val = (j 2).val; rw [hi.2.2.1]; omega
  | ⟨3, _⟩ => show win0_1.index t 3 * 128 + 1 * (j 3).val = (j 3).val; rw [hi.2.2.2.1]; omega
  | ⟨4, _⟩ => show win0_1.index t 4 * 128 + 1 * (j 4).val = (j 4).val; rw [hi.2.2.2.2]; omega

/-- The predicted-coordinate block of step `t` is batch row `t` of the predicted-coordinate array. -/
theorem blk2_eq (c : Dev nD) (t : Fin cfg0.N) :
    (iblk m c 2 t : Vec Ideal S1x9x4x128x128 .f32) = blockLoc (m ((c : Thread nD τ).loc main_arg2)) ⟨t.val, step_lt t⟩ := by
  have hi := idx_in2 t
  funext j
  unfold iblk blockLoc
  rw [View.read_apply]
  show V m c main_arg2 _ = m (c.tc.loc main_arg2) _
  unfold V
  congr 1
  funext a
  apply Fin.ext
  have h0 : (j 0).val < 1 := (j 0).isLt
  match a with
  | ⟨0, _⟩ => show win0_2.index t 0 * 1 + 1 * (j 0).val = t.val; rw [hi.1]; omega
  | ⟨1, _⟩ => show win0_2.index t 1 * 9 + 1 * (j 1).val = (j 1).val; rw [hi.2.1]; omega
  | ⟨2, _⟩ => show win0_2.index t 2 * 4 + 1 * (j 2).val = (j 2).val; rw [hi.2.2.1]; omega
  | ⟨3, _⟩ => show win0_2.index t 3 * 128 + 1 * (j 3).val = (j 3).val; rw [hi.2.2.2.1]; omega
  | ⟨4, _⟩ => show win0_2.index t 4 * 128 + 1 * (j 4).val = (j 4).val; rw [hi.2.2.2.2]; omega

end Cert.KernelBlocks
end
-- ==== Proof.HalfSums.lean ====
/-
  The host's sum of the two halves.

  After the grid each of the three [2,8,128] result arrays holds, at entry (q, 0, 0), the total of half q. The host cuts
  those two entries out, views them as a vector of length 2 and adds them up from the zero word: the result is the sum
  over q of the entries (q, 0, 0).
-/
import proofs.«100047_j83408264888736_2_alg».proof.Proof.Gen.KernelIdeal
import proofs.«100047_j83408264888736_2_alg».proof.Proof.LossSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.HalfSums

open Cert.KernelIdeal Cert.KernelIdeal.Gen Cert.LossSpec Idealize.ShloMosaic Idealize.ShloMosaic.TcCoe Idealize.SL.Sem
  Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The two cut entries viewed as a vector of length 2: entry `q` is the array's entry `(q, 0, 0)`. -/
theorem halves_apply (o : (⟨S2x8x128, .f32⟩ : BufTy).Contents (Elt Ideal)) (q : Fin 2) :
    shapeCast S2 (extractStridedSlice S2x1x1 ![0, 0, 0] o slices_S2x8x128_S2x1x1_0_0_0) shapeCasts_S2x1x1_S2 (ix1 q)
      = o (ix3 q (0 : Fin 8) (0 : Fin 128)) := by
  refine (shapeCast_apply _ _ (ix1 q) (ix3 q (0 : Fin 1) (0 : Fin 1)) ?_).trans ?_
  · rw [Shape.rowMajor_val_three, Shape.rowMajor_val_one]
    show (q.val * 1 + 0) * 1 + 0 = q.val
    omega
  · refine extractStridedSlice_apply _ _ _ (ix3 q (0 : Fin 1) (0 : Fin 1)) (ix3 q (0 : Fin 8) (0 : Fin 128)) fun b => ?_
    match b with
    | ⟨0, _⟩ => exact (Nat.zero_add _).symm
    | ⟨1, _⟩ => exact rfl
    | ⟨2, _⟩ => exact rfl

/-- The host's sum of the two cut entries, from the zero word, is the sum over the halves of the entries `(q, 0, 0)`. -/
theorem halfSum_apply (o : (⟨S2x8x128, .f32⟩ : BufTy).Contents (Elt Ideal)) (i : S_.Idx) :
    Host.reduceAdd (F := Ideal)
        (shapeCast S2 (extractStridedSlice S2x1x1 ![0, 0, 0] o slices_S2x8x128_S2x1x1_0_0_0) shapeCasts_S2x1x1_S2)
        (constant (F := Ideal) S_ .f32 0x00000000#32) reducesTo_S2_S_d0 h_S_ i
      = ∑ q : Fin 2, o (ix3 q (0 : Fin 8) (0 : Fin 128)) := by
  show Ideal.hostReduceAdd reducesTo_S2_S_d0
      (shapeCast S2 (extractStridedSlice S2x1x1 ![0, 0, 0] o slices_S2x8x128_S2x1x1_0_0_0) shapeCasts_S2x1x1_S2)
      (Ideal.ofBits .f32 0x00000000#32) i = _
  refine (Ideal.hostReduceAdd_total reducesTo_S2_S_d0 (fun b => b.elim0) _ _ i).trans ?_
  rw [Ideal.ofBits_zero_f32, zero_add]
  refine (sum_idx1 _).trans ?_
  exact Finset.sum_congr rfl fun q _ => halves_apply o q

end Cert.HalfSums
end
-- ==== Proof.LibIdxSum4.lean ====
/-
  A sum over the index set of a rank-4 array is the fourfold sum over its coordinates.

  The index set of an array of shape [n0, n1, n2, n3] is in bijection with the product of its four coordinate ranges
  (an index is `ix4` of its coordinates), so in any commutative additive monoid a sum over all indices is the iterated
  sum over the coordinates, first axis outermost. This is what turns a host reduction over every axis of a rank-4 array
  (the initial value plus the sum over all indices) into coordinate sums that can be exchanged and regrouped.
  The rank-2 form is `ValueIdx.idxEquiv2` / `ValueIdx.sum_idx2`; this file is the same statement at rank 4, for any
  extents and any commutative additive monoid.
-/
import Idealize.ShloMosaic.Lib.ValueIdx
import Mathlib

noncomputable section

open scoped BigOperators

namespace Cert.IdxSum4

open Idealize.ShloMosaic Idealize.ShloMosaic.ValueIdx

/-- A rank-4 index set is the product of its four coordinate ranges: an index goes to its coordinates, and back by
    `ix4`. -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over the index set of a rank-4 array, in any commutative additive monoid, is the fourfold sum over the
    coordinates, first axis outermost. -/
theorem sum_idx4 {M : Type*} [AddCommMonoid M] {n0 n1 n2 n3 : Nat}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end Cert.IdxSum4

end
-- ==== Proof.SumRegroup.lean ====
/-
  Regrouping a finite sum over the cells of a [64, 9, 128, 128] array.

  In a commutative additive monoid a finite sum does not depend on the order or the grouping of its terms. Three
  instances are used here:

    * the index set of a rank-4 array is the product of its four coordinate ranges, so a sum over it is the fourfold
      iterated sum over the coordinates (the imported general lemma `sum_idx4`);
    * the 64 rows are the 2 halves of 32 rows each, row 32 c + i being the i-th row of half c, so a sum taken half by
      half is the sum over all rows;
    * inside one row, summing over pixel rows h, then along the row w, then over anchors a is the same as summing
      over a, then h, then w (two exchanges of adjacent sums).

  No finiteness of the terms is used: on the extended reals addition is commutative and associative at the infinities
  too, and that is all the argument needs.
-/
import proofs.«100047_j83408264888736_2_alg».proof.Proof.LossSpec
import proofs.«100047_j83408264888736_2_alg».proof.Proof.LibIdxSum4
import Idealize.ShloMosaic.Lib.ValueIdx
import Mathlib

noncomputable section

open scoped BigOperators

namespace Cert.SumRegroup

open Idealize.ShloMosaic Idealize.ShloMosaic.ValueIdx Cert.LossSpec Cert.IdxSum4

/-- Row `32 c + i` is the image of `(c, i)` under the standard bijection of `Fin 2 × Fin 32` with `Fin 64`. -/
theorem row_eq (c : Fin 2) (i : Fin 32) : row c i = (finProdFinEquiv (c, i) : Fin (2 * 32)) := by
  apply Fin.ext
  simp only [row, finProdFinEquiv_apply_val]
  omega

/-- A sum taken half by half, 32 rows to a half, is the sum over all 64 rows. -/
theorem sum_rows {M : Type*} [AddCommMonoid M] (g : Fin 64 → M) :
    ∑ c : Fin 2, ∑ i : Fin 32, g (row c i) = ∑ b : Fin 64, g b := by
  have h : ∑ b : Fin (2 * 32), g b = ∑ p : Fin 2 × Fin 32, g (finProdFinEquiv p) :=
    (Equiv.sum_comp (finProdFinEquiv (m := 2) (n := 32)) g).symm
  rw [Fintype.sum_prod_type] at h
  simp only [row_eq]
  exact h.symm

/-- Inside one row: pixel rows, then along the row, then anchors, against anchors, then pixel rows, then along the
    row. -/
theorem sum_hwa_eq_ahw {M : Type*} [AddCommMonoid M] (F : Fin 9 → Fin 128 → Fin 128 → M) :
    ∑ h : Fin 128, ∑ w : Fin 128, ∑ a : Fin 9, F a h w = ∑ a : Fin 9, ∑ h : Fin 128, ∑ w : Fin 128, F a h w :=
  calc ∑ h : Fin 128, ∑ w : Fin 128, ∑ a : Fin 9, F a h w
      = ∑ h : Fin 128, ∑ a : Fin 9, ∑ w : Fin 128, F a h w :=
        Finset.sum_congr rfl fun _ _ => Finset.sum_comm
    _ = ∑ a : Fin 9, ∑ h : Fin 128, ∑ w : Fin 128, F a h w := Finset.sum_comm

/-- The loss taken half by half, row by row, and inside a row over pixel rows, along the row and over anchors, is
    the one sum over every cell. -/
theorem byHalves_rows_eq_overCells (f : Fin 64 → Fin 9 → Fin 128 → Fin 128 → EReal) :
    byHalves (fun b => ∑ h : Fin 128, ∑ w : Fin 128, ∑ a : Fin 9, f b a h w) = overCells f := by
  unfold byHalves overCells
  rw [sum_rows (fun b => ∑ h : Fin 128, ∑ w : Fin 128, ∑ a : Fin 9, f b a h w),
    sum_idx4 (fun j : SObj.Idx => f (j 0) (j 1) (j 2) (j 3))]
  exact Finset.sum_congr rfl fun b _ => sum_hwa_eq_ahw (f b)

end Cert.SumRegroup

end
-- ==== Proof.LossTotals.lean ====
/-
  Each of the three losses, taken half by half over the rows' block contributions, is the one sum over all cells.

  Batch row b of a whole array, read as a block at (0, a, h, w) (or (0, a, k, h, w)), is the array at (b, a, h, w)
  (or (b, a, k, h, w)). So the contribution of row b, computed from its blocks, is the sum over h, w, a of the cell
  term of the whole arrays at (b, a, h, w), and regrouping the sum gives the sum over every cell.
-/
import proofs.«100047_j83408264888736_2_alg».proof.Proof.LossSpec
import proofs.«100047_j83408264888736_2_alg».proof.Proof.SumRegroup

noncomputable section

open scoped BigOperators

namespace Cert.LossTotals

open Idealize.ShloMosaic Idealize.ShloMosaic.ValueIdx Cert.LossSpec Cert.SumRegroup

/-- The no-object contribution of row `b`, from its blocks, is the sum of the row's no-object cell terms. -/
theorem rowNoObj_block (P : SObj.Idx → EReal) (G : SGt.Idx → EReal) (b : Fin 64) :
    rowNoObj (blockObj P b) (blockGt G b) = ∑ h : Fin 128, ∑ w : Fin 128, ∑ a : Fin 9, noObjAt P G b a h w := rfl

/-- The object contribution of row `b`, from its blocks, is the sum of the row's object cell terms. -/
theorem rowObj_block (P : SObj.Idx → EReal) (G : SGt.Idx → EReal) (b : Fin 64) :
    rowObj (blockObj P b) (blockGt G b) = ∑ h : Fin 128, ∑ w : Fin 128, ∑ a : Fin 9, objAt P G b a h w := rfl

/-- The coordinate contribution of row `b`, from its blocks, is the sum of the row's coordinate cell terms. -/
theorem rowCoor_block (L : SLoc.Idx → EReal) (G : SGt.Idx → EReal) (b : Fin 64) :
    rowCoor (blockGt G b) (blockLoc L b) = ∑ h : Fin 128, ∑ w : Fin 128, ∑ a : Fin 9, coorAt L G b a h w := rfl

theorem noObj_total (P : SObj.Idx → EReal) (G : SGt.Idx → EReal) :
    byHalves (fun b => rowNoObj (blockObj P b) (blockGt G b)) = overCells (noObjAt P G) := by
  simp only [rowNoObj_block]
  exact byHalves_rows_eq_overCells (noObjAt P G)

theorem obj_total (P : SObj.Idx → EReal) (G : SGt.Idx → EReal) :
    byHalves (fun b => rowObj (blockObj P b) (blockGt G b)) = overCells (objAt P G) := by
  simp only [rowObj_block]
  exact byHalves_rows_eq_overCells (objAt P G)

theorem coor_total (L : SLoc.Idx → EReal) (G : SGt.Idx → EReal) :
    byHalves (fun b => rowCoor (blockGt G b) (blockLoc L b)) = overCells (coorAt L G) := by
  simp only [rowCoor_block]
  exact byHalves_rows_eq_overCells (coorAt L G)

end Cert.LossTotals

end
-- ==== Proof.KernelTotals.lean ====
/-
  The host's reading of each output array is the specification's one sum over every cell.

  Entry (q, 0, 0) of an output array is the carried block after the last step of half q, which holds the running sum
  of the row contributions over the 32 steps of that half; step t works on batch row t. Adding the two halves gives the
  loss taken half by half and row by row, which is the sum over all cells by regrouping a finite sum.
-/
import proofs.«100047_j83408264888736_2_alg».proof.Proof.KernelAccum
import proofs.«100047_j83408264888736_2_alg».proof.Proof.KernelArrays
import proofs.«100047_j83408264888736_2_alg».proof.Proof.KernelBlocks
import proofs.«100047_j83408264888736_2_alg».proof.Proof.HalfSums
import proofs.«100047_j83408264888736_2_alg».proof.Proof.LossTotals
import proofs.«100047_j83408264888736_2_alg».proof.Proof.RunningSum
import proofs.«100047_j83408264888736_2_alg».proof.Proof.TailSpec

set_option maxRecDepth 16384

noncomputable section

open Idealize.ShloMosaic Idealize.ShloMosaic.TcCoe Idealize.SL.Sem Idealize.ShloMosaic.ValueIdx
open Idealize.ShloMosaic.Pipeline (Dat)

namespace Cert.KernelTotals
open Cert.KernelIdeal Cert.KernelIdeal.Gen Cert.LossSpec Cert.RunningSum Cert.KernelAccum Cert.KernelArrays Cert.KernelBlocks
open Cert.LossTotals Cert.HalfSums Cert.TailSpec

variable (m : (ℓ : Loc nD τ sig) → Buf (Elt Ideal) ℓ)

/-- A batch row is a step of the grid. -/
theorem row_lt (b : Fin 64) : b.val < cfg0.N := by rw [show cfg0.N = 64 from N_0]; exact b.isLt

/-- The contribution of the step working on batch row `b`, read off the argument arrays. -/
theorem gNo_eq (c : Dev nD) (b : Fin 64) :
    gNo m c b.val = rowNoObj (blockObj (m ((c : Thread nD τ).loc main_arg0)) b) (blockGt (m ((c : Thread nD τ).loc main_arg4)) b) := by
  rw [gNo, dif_pos (row_lt b)]
  show rowNoObj (iblk m c 0 ⟨b.val, row_lt b⟩ : Vec Ideal S1x9x128x128 .f32) (iblk m c 1 ⟨b.val, row_lt b⟩ : Vec Ideal S1x9x5x128x128 .f32) = _
  rw [blk0_eq m c, blk1_eq m c]
theorem gObj_eq (c : Dev nD) (b : Fin 64) :
    gObj m c b.val = rowObj (blockObj (m ((c : Thread nD τ).loc main_arg0)) b) (blockGt (m ((c : Thread nD τ).loc main_arg4)) b) := by
  rw [gObj, dif_pos (row_lt b)]
  show rowObj (iblk m c 0 ⟨b.val, row_lt b⟩ : Vec Ideal S1x9x128x128 .f32) (iblk m c 1 ⟨b.val, row_lt b⟩ : Vec Ideal S1x9x5x128x128 .f32) = _
  rw [blk0_eq m c, blk1_eq m c]
theorem gCoor_eq (c : Dev nD) (b : Fin 64) :
    gCoor m c b.val = rowCoor (blockGt (m ((c : Thread nD τ).loc main_arg4)) b) (blockLoc (m ((c : Thread nD τ).loc main_arg2)) b) := by
  rw [gCoor, dif_pos (row_lt b)]
  show rowCoor (iblk m c 1 ⟨b.val, row_lt b⟩ : Vec Ideal S1x9x5x128x128 .f32) (iblk m c 2 ⟨b.val, row_lt b⟩ : Vec Ideal S1x9x4x128x128 .f32) = _
  rw [blk1_eq m c, blk2_eq m c]

/-- The host's reading of the no-object array is the no-object loss summed over every cell. -/
theorem halfSum3_eq (c : Dev nD) (i : S_.Idx) :
    halfSum ((dats m 0 c).arrAt 3 cfg0.N) i
      = overCells (noObjAt (m ((c : Thread nD τ).loc main_arg0)) (m ((c : Thread nD τ).loc main_arg4))) := by
  rw [arr3_eq m c, ← noObj_total]
  unfold halfSum byHalves
  rw [halfSum_apply]
  refine Finset.sum_congr rfl fun q _ => ?_
  show (outsAt0 m c (32 * q.val + 31) (last_lt q)).1 _ = _
  rw [outsAt_eq m c]
  show run32 (gNo m c) (32 * q.val + 31) = _
  rw [run32_last]
  exact Finset.sum_congr rfl fun k _ => gNo_eq m c (row q k)

/-- The host's reading of the object array is the object loss summed over every cell. -/
theorem halfSum4_eq (c : Dev nD) (i : S_.Idx) :
    halfSum ((dats m 0 c).arrAt 4 cfg0.N) i
      = overCells (objAt (m ((c : Thread nD τ).loc main_arg0)) (m ((c : Thread nD τ).loc main_arg4))) := by
  rw [arr4_eq m c, ← obj_total]
  unfold halfSum byHalves
  rw [halfSum_apply]
  refine Finset.sum_congr rfl fun q _ => ?_
  show (outsAt0 m c (32 * q.val + 31) (last_lt q)).2.1 _ = _
  rw [outsAt_eq m c]
  show run32 (gObj m c) (32 * q.val + 31) = _
  rw [run32_last]
  exact Finset.sum_congr rfl fun k _ => gObj_eq m c (row q k)

/-- The host's reading of the coordinate array is the coordinate loss summed over every cell. -/
theorem halfSum5_eq (c : Dev nD) (i : S_.Idx) :
    halfSum ((dats m 0 c).arrAt 5 cfg0.N) i
      = overCells (coorAt (m ((c : Thread nD τ).loc main_arg2)) (m ((c : Thread nD τ).loc main_arg4))) := by
  rw [arr5_eq m c, ← coor_total]
  unfold halfSum byHalves
  rw [halfSum_apply]
  refine Finset.sum_congr rfl fun q _ => ?_
  show (outsAt0 m c (32 * q.val + 31) (last_lt q)).2.2 _ = _
  rw [outsAt_eq m c]
  show run32 (gCoor m c) (32 * q.val + 31) = _
  rw [run32_last]
  exact Finset.sum_congr rfl fun k _ => gCoor_eq m c (row q k)

end Cert.KernelTotals

end
-- ==== Proof.lean ====
/-
  The certificate of a localization loss: a Pallas kernel against its jnp reference, equal on the extended reals.

  Both programs compute  image + (0.5 * S1 + 1 * S2 + 5 * S3) / 64,  where `image` is the mean cross-entropy of the
  scores at the labels (a log-softmax, a gather, a mean: the same host operations in both programs, carried here as one
  function and never opened) and S1, S2, S3 are the no-object, object and coordinate losses: sums, over the
  64 x 9 x 128 x 128 cells, of
      (1 - g) * -(max (-100) (log (1 + -p))),    g * -(max (-100) (log p)),    g * sum_k (l_k - t_k)^2
  with p the predicted objectness, g the ground-truth mask and l, t the predicted and target coordinates of the cell.

  The reference takes each S in ONE sum over the whole array. The kernel walks a grid of 2 x 32 steps, one batch row per
  step: a step adds its row's contribution (summed over anchors, then along each pixel row, then over the pixel rows)
  into a block it carries across the 32 steps of its half, zeroed at the half's first step and written back after its
  last; the host then adds the two halves. The kernel spells a negation as `0 - x` and a clamp as `max x (-100)` where
  the reference writes `-x` and `max (-100) x`. On the extended reals `0 - x = -x`, `max` commutes, and a finite sum
  may be regrouped and reordered freely (addition there is commutative and associative, the infinities included), so the
  two programs' results are equal for every input: the precondition is not used.

  The modules: `LossSpec` (the cell terms and the two ways of summing), `SumRegroup` / `LossTotals` / `RunningSum` (the
  regrouping laws), `KernelPayloads` (the body's arithmetic read on the extended reals), `KernelCases` / `KernelAccum`
  (what a step leaves in the carried blocks; the running sums by induction on the step), `KernelBlocks` /
  `KernelArrays` (input blocks are batch rows; the output arrays after the last write-backs), `HalfSums` / `TailSpec` /
  `KernelTail` / `KernelRun` (the host lines after the grid and the whole run), `KernelTotals` (the host's reading of
  each output array is the sum over every cell), `RefRun` / `RefRead` / `RefCells` (the reference's run and its
  operations read at an index).
-/
import proofs.«100047_j83408264888736_2_alg».proof.Defs
import proofs.«100047_j83408264888736_2_alg».proof.Proof.Gen.Kernel
import proofs.«100047_j83408264888736_2_alg».proof.Proof.Gen.Kernel.Frame
import proofs.«100047_j83408264888736_2_alg».proof.Proof.Gen.KernelIdeal
import proofs.«100047_j83408264888736_2_alg».proof.Proof.Gen.KernelIdeal.Frame
import proofs.«100047_j83408264888736_2_alg».proof.Proof.Gen.ReferenceIdeal
import proofs.«100047_j83408264888736_2_alg».proof.Proof.Gen.Pre_finite_inputs
import proofs.«100047_j83408264888736_2_alg».proof.Proof.RefRun
import proofs.«100047_j83408264888736_2_alg».proof.Proof.RefRead
import proofs.«100047_j83408264888736_2_alg».proof.Proof.RefCells
import proofs.«100047_j83408264888736_2_alg».proof.Proof.KernelRun
import proofs.«100047_j83408264888736_2_alg».proof.Proof.KernelTotals
import Idealize.ShloMosaic.Adequacy
import Idealize.ShloMosaic.Init

noncomputable section

namespace Cert.Proof

open Idealize.ShloMosaic Idealize.ShloMosaic.TcCoe Idealize.SL.Sem

/-- The three programs run, fault-free, with their arguments unchanged. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

set_option maxHeartbeats 1600000 in
/-- From memories agreeing on the arguments both idealized programs end at the reference's term of the arguments:
    the reference by its own run, the kernel because the host's reading of each output array is the reference's
    whole-array sum. -/
theorem algebraic : Cert.algebraic_KernelIdeal_ReferenceIdeal := by
  intro m ρ m' ρ' _ hagree
  refine ⟨fun c => Cert.ReferenceIdeal.ReadP.val_main_v47 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩) (Cert.KernelRun.run m ρ)
    beta_reduce
    have e3 : Cert.TailSpec.halfSum ((Cert.KernelIdeal.Gen.dats m 0 c).arrAt 3 Cert.KernelIdeal.cfg0.N)
        = Cert.ReferenceIdeal.ReadP.val_main_v11 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) :=
      funext fun i => (Cert.KernelTotals.halfSum3_eq m c i).trans (Cert.RefCells.v11_apply _ _ i).symm
    have e4 : Cert.TailSpec.halfSum ((Cert.KernelIdeal.Gen.dats m 0 c).arrAt 4 Cert.KernelIdeal.cfg0.N)
        = Cert.ReferenceIdeal.ReadP.val_main_v14 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) :=
      funext fun i => (Cert.KernelTotals.halfSum4_eq m c i).trans (Cert.RefCells.v14_apply _ _ i).symm
    have e5 : Cert.TailSpec.halfSum ((Cert.KernelIdeal.Gen.dats m 0 c).arrAt 5 Cert.KernelIdeal.cfg0.N)
        = Cert.ReferenceIdeal.ReadP.val_main_v20 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) :=
      funext fun i => (Cert.KernelTotals.halfSum5_eq m c i).trans (Cert.RefCells.v20_apply _ _ i).symm
    rw [Cert.KernelTail.ref_eq, e3, e4, e5]
  · refine (θ_run Cert.ReferenceIdeal.defs _ _).mono (fun _ h c => ⟨(h c).1.trans ?_, (h c).2⟩)
      (Cert.ReferenceIdeal.ValueP.run (F := Ideal) m' ρ')
    beta_reduce
    rw [(hagree c).1, (hagree c).2.1, (hagree c).2.2.1, (hagree c).2.2.2.1, (hagree c).2.2.2.2]
    exact Cert.ReferenceIdeal.ReadP.val_main_v47_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
